-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg15 : FVec F S256x64 .f32) (main_arg16 : FVec F S64 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x64 .f32 := Host.absf main_arg15
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg11 : FVec F S128x256 .f32) (main_arg12 : FVec F S256x256 .f32) (main_arg13 : FVec F S256 .f32) (main_arg14 : FVec F S256x256 .f32) (main_arg15 : FVec F S256x64 .f32) (main_arg16 : FVec F S64 .f32) (main_v33 : IVec S_ 1) : IVec S_ 1 :=
  let main_v34 : FVec F S128x256 .f32 := Host.absf main_arg11
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg14
  let main_cst_18 : FVec F S_ .f32 := constant S_ .f32 0x7F800000#32
  let main_v50 : FVec F S256x256 .f32 := broadcastInDim S256x256 ![] bcast_S_S256x256 main_cst_18
  fn_part3 (F := F) main_arg15 main_arg16 main_v48 main_v49 main_v50

def fn_part1 {F : FTy → Type} [FloatOps F] (main_arg8 : FVec F S128x256 .f32) (main_arg9 : FVec F S128x256 .f32) (main_arg10 : FVec F S256 .f32) (main_arg11 : FVec F S128x256 .f32) (main_arg12 : FVec F S256x256 .f32) (main_arg13 : FVec F S256 .f32) (main_arg14 : FVec F S256x256 .f32) (main_arg15 : FVec F S256x64 .f32) (main_arg16 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg8
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : FVec F S100000x128 .f32) (main_arg1 : FVec F S50000x128 .f32) (main_arg2 : IVec S800000 32) (main_arg3 : IVec S800000 32) (main_arg4 : IVec S800000 32) (main_arg5 : IVec S800000 32) (main_arg6 : FVec F S128x256 .f32) (main_arg7 : FVec F S256 .f32) (main_arg8 : FVec F S128x256 .f32) (main_arg9 : FVec F S128x256 .f32) (main_arg10 : FVec F S256 .f32) (main_arg11 : FVec F S128x256 .f32) (main_arg12 : FVec F S256x256 .f32) (main_arg13 : FVec F S256 .f32) (main_arg14 : FVec F S256x256 .f32) (main_arg15 : FVec F S256x64 .f32) (main_arg16 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_v13 main_v16
-- ==== Kernel.lean ====
abbrev S100000x128 : Shape := ⟨2, ![100000, 128]⟩
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S50000 : Shape := ⟨1, ![50000]⟩
abbrev S50000x1 : Shape := ⟨2, ![50000, 1]⟩
abbrev S50000x256 : Shape := ⟨2, ![50000, 256]⟩
abbrev S800000x256 : Shape := ⟨2, ![800000, 256]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 102
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S128x256, .f32⟩
  | .hbm, ⟨7, _⟩ => ⟨S256, .f32⟩
  | .hbm, ⟨8, _⟩ => ⟨S128x256, .f32⟩
  | .hbm, ⟨9, _⟩ => ⟨S128x256, .f32⟩
  | .hbm, ⟨10, _⟩ => ⟨S256, .f32⟩
  | .hbm, ⟨11, _⟩ => ⟨S128x256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x64, .f32⟩
  | .hbm, ⟨16, _⟩ => ⟨S64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S100000x128, .f32⟩
  | .hbm, ⟨28, _⟩ => ⟨S800000x1, .i32⟩
  | .hbm, ⟨29, _⟩ => ⟨S100000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S100000, .f32⟩
  | .hbm, ⟨34, _⟩ => ⟨S800000x1, .i32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x256, .f32⟩
  | .hbm, ⟨44, _⟩ => ⟨S100000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S1x256, .f32⟩
  | .hbm, ⟨72, _⟩ => ⟨S50000x256, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S_, .f32⟩
  | .hbm, ⟨87, _⟩ => ⟨S800000, .f32⟩
  | .hbm, ⟨88, _⟩ => ⟨S_, .f32⟩
  | .hbm, ⟨89, _⟩ => ⟨S50000, .f32⟩
  | .hbm, ⟨90, _⟩ => ⟨S800000x1, .i32⟩
  | .hbm, ⟨91, _⟩ => ⟨S50000, .f32⟩
  | .hbm, ⟨92, _⟩ => ⟨S_, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x256, .f32⟩
  | .hbm, ⟨98, _⟩ => ⟨S50000x256, .f32⟩
  | .hbm, ⟨99, _⟩ => ⟨S1x256, .f32⟩
  | .hbm, ⟨100, _⟩ => ⟨S1x64, .f32⟩
  | .hbm, ⟨101, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S1x256, .f32⟩
  | .local _ .vmem, ⟨15, _⟩ => ⟨S128x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S256x64, .f32⟩
  | .local _ .vmem, ⟨26, _⟩ => ⟨S1x64, .f32⟩
  | .local _ .vmem, ⟨27, _⟩ => ⟨S2000x64, .f32⟩
  | .local _ .vmem, ⟨28, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_c_5 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_7 : Ref sig .tc := ⟨.hbm, 58, rfl⟩
abbrev main_v30 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_10 : Ref sig .tc := ⟨.hbm, 73, rfl⟩
abbrev main_v40 : Ref sig .tc := ⟨.hbm, 74, rfl⟩
abbrev main_v41 : Ref sig .tc := ⟨.hbm, 75, rfl⟩
abbrev main_c_11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_12 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_13 : Ref sig .tc := ⟨.hbm, 86, rfl⟩
abbrev main_v50 : Ref sig .tc := ⟨.hbm, 87, rfl⟩
abbrev main_cst_14 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_15 : Ref sig .tc := ⟨.hbm, 92, rfl⟩
abbrev main_call2_v0 : Ref sig .tc := ⟨.hbm, 93, rfl⟩
abbrev main_call2_v1 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S64_S1x64 : S64.ShapeCasts S1x64
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S2000x128_S128x256_S2000x256_1_0_0_1_n_n_wf : DotDims.WF S2000x128 S128x256 S2000x256 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x64.size a ≤ S256x64.size a
  hwx2_5 : ∀ i : grid2.Coords, EltTy.bits .f32 = 32 ∨ (Rect.block (s := S256x64) S256x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S50000x64.size a
  hwx2_7 : ∀ i : grid2.Coords, EltTy.bits .f32 = 32 ∨ (Rect.block (s := S50000x64) S2000x64.size (cc2_transform_7 i) (hinb2_7 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S256x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S50000 : Shape := ⟨1, ![50000]⟩
abbrev S50000x1 : Shape := ⟨2, ![50000, 1]⟩
abbrev S50000x256 : Shape := ⟨2, ![50000, 256]⟩
abbrev S800000x256 : Shape := ⟨2, ![800000, 256]⟩
abbrev S50000x64 : Shape := ⟨2, ![50000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S128x256, .f32⟩
  | .hbm, ⟨7, _⟩ => ⟨S256, .f32⟩
  | .hbm, ⟨8, _⟩ => ⟨S128x256, .f32⟩
  | .hbm, ⟨9, _⟩ => ⟨S128x256, .f32⟩
  | .hbm, ⟨10, _⟩ => ⟨S256, .f32⟩
  | .hbm, ⟨11, _⟩ => ⟨S128x256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x64, .f32⟩
  | .hbm, ⟨16, _⟩ => ⟨S64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S100000x128, .f32⟩
  | .hbm, ⟨28, _⟩ => ⟨S800000x1, .i32⟩
  | .hbm, ⟨29, _⟩ => ⟨S100000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S100000, .f32⟩
  | .hbm, ⟨34, _⟩ => ⟨S800000x1, .i32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x256, .f32⟩
  | .hbm, ⟨44, _⟩ => ⟨S1x256, .f32⟩
  | .hbm, ⟨45, _⟩ => ⟨S100000x256, .f32⟩
  | .hbm, ⟨46, _⟩ => ⟨S100000x256, .f32⟩
  | .hbm, ⟨47, _⟩ => ⟨S100000x256, .f32⟩
  | .hbm, ⟨48, _⟩ => ⟨S100000x256, .f32⟩
  | .hbm, ⟨49, _⟩ => ⟨S_, .f32⟩
  | .hbm, ⟨50, _⟩ => ⟨S100000x256, .f32⟩
  | .hbm, ⟨51, _⟩ => ⟨S100000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000x256, .f32⟩
  | .hbm, ⟨86, _⟩ => ⟨S50000x256, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x256, .f32⟩
  | .hbm, ⟨96, _⟩ => ⟨S_, .f32⟩
  | .hbm, ⟨97, _⟩ => ⟨S50000x256, .f32⟩
  | .hbm, ⟨98, _⟩ => ⟨S800000x1, .i32⟩
  | .hbm, ⟨99, _⟩ => ⟨S50000x256, .f32⟩
  | .hbm, ⟨100, _⟩ => ⟨S_, .f32⟩
  | .hbm, ⟨101, _⟩ => ⟨S800000, .f32⟩
  | .hbm, ⟨102, _⟩ => ⟨S_, .f32⟩
  | .hbm, ⟨103, _⟩ => ⟨S50000, .f32⟩
  | .hbm, ⟨104, _⟩ => ⟨S800000x1, .i32⟩
  | .hbm, ⟨105, _⟩ => ⟨S50000, .f32⟩
  | .hbm, ⟨106, _⟩ => ⟨S_, .f32⟩
  | .hbm, ⟨107, _⟩ => ⟨S_, .f32⟩
  | .hbm, ⟨108, _⟩ => ⟨S50000, .f32⟩
  | .hbm, ⟨109, _⟩ => ⟨S50000, .f32⟩
  | .hbm, ⟨110, _⟩ => ⟨S50000x1, .f32⟩
  | .hbm, ⟨111, _⟩ => ⟨S50000x256, .f32⟩
  | .hbm, ⟨112, _⟩ => ⟨S50000x256, .f32⟩
  | .hbm, ⟨113, _⟩ => ⟨S50000x256, .f32⟩
  | .hbm, ⟨114, _⟩ => ⟨S1x256, .f32⟩
  | .hbm, ⟨115, _⟩ => ⟨S50000x256, .f32⟩
  | .hbm, ⟨116, _⟩ => ⟨S50000x256, .f32⟩
  | .hbm, ⟨117, _⟩ => ⟨S50000x256, .f32⟩
  | .hbm, ⟨118, _⟩ => ⟨S50000x256, .f32⟩
  | .hbm, ⟨119, _⟩ => ⟨S_, .f32⟩
  | .hbm, ⟨120, _⟩ => ⟨S50000x256, .f32⟩
  | .hbm, ⟨121, _⟩ => ⟨S50000x256, .f32⟩
  | .hbm, ⟨122, _⟩ => ⟨S50000x64, .f32⟩
  | .hbm, ⟨123, _⟩ => ⟨S1x64, .f32⟩
  | .hbm, ⟨124, _⟩ => ⟨S50000x64, .f32⟩
  | .hbm, ⟨125, _⟩ => ⟨S50000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call1_cst : Ref sig .tc := ⟨.hbm, 49, rfl⟩
abbrev main_call1_v0 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_9 : Ref sig .tc := ⟨.hbm, 71, rfl⟩
abbrev main_call2_v0 : Ref sig .tc := ⟨.hbm, 72, rfl⟩
abbrev main_call2_v1 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call3_cst : Ref sig .tc := ⟨.hbm, 84, rfl⟩
abbrev main_call3_v0 : Ref sig .tc := ⟨.hbm, 85, rfl⟩
abbrev main_v49 : Ref sig .tc := ⟨.hbm, 86, rfl⟩
abbrev main_c_10 : Ref sig .tc := ⟨.hbm, 87, rfl⟩
abbrev main_v50 : Ref sig .tc := ⟨.hbm, 88, rfl⟩
abbrev main_v51 : Ref sig .tc := ⟨.hbm, 89, rfl⟩
abbrev main_c_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_cst_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_15 : Ref sig .tc := ⟨.hbm, 106, rfl⟩
abbrev main_call4_v0 : Ref sig .tc := ⟨.hbm, 107, rfl⟩
abbrev main_call4_v1 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_call5_cst : Ref sig .tc := ⟨.hbm, 119, rfl⟩
abbrev main_call5_v0 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x256_S100000x256_1_0_0_1_n_n_wf : DotDims.WF S100000x128 S128x256 S100000x256 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.SageRun.lean ====
/-
  The kernel program's run, with the value of its result.

  @main of the kernel program is three TensorCore regions among stretches of host operations. Folding the launch
  memory through them — a host stretch's operations applied to the contents before it, a region's arrays set to
  what its write-backs leave — gives the contents of every buffer at every boundary; the last boundary's contents
  are `W12`. Every weakly fair execution terminates with every unscoped buffer at those contents: so the result
  buffer holds what `W12` says, and each argument array, which the fold never writes, is as launched.
-/
import proofs.«134559_j11768210391489_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run lemma's implicit arguments are found by unifying its conclusion with this one, which takes unfolding
-- plain definitions in a metavariable's type
set_option backward.isDefEq.respectTransparency.types false in
/-- The run with its value: at the compiled mesh, from any memory with zero counters, every weakly fair execution
    of @main on the TensorCores terminates, nothing faulting, and in every final state the run of the three regions
    and the host stretches between them has left every unscoped buffer at the contents folded through @main
    (`W12`). In particular the result buffer holds what the last region's write-backs leave, and every argument
    array, which no segment writes, is as launched. -/
theorem run_value : θ_run defs (onTc (τ := τ) (main (F := F))) ⟨m, fun _ => 0, ρ⟩ (fun r => ∀ c : Dev nD,
      r.2.mem ((c.tc : Thread nD τ).loc main_v60) = W12 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v60 (by decide))),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.ValueRun

end
-- ==== Proof.SageBoundary.lean ====
/-
  The argument arrays at every boundary of the kernel program's run.

  @main is three regions among stretches of host operations, and the buffer contents at each boundary are the launch
  memory folded through what came before. No host operation and no region writes an argument array (a region only
  reads one through an input window), so at every boundary each argument array still holds its launch contents. The
  bias vectors reach the regions reshaped to one row: read at `(0, q)` the row is the vector at `q`.
-/
import proofs.«134559_j11768210391489_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Boundary

open Cert.KernelIdeal Cert.KernelIdeal.Gen

variable (m : (ℓ : Loc nD τ sig) → Buf (Elt Ideal) ℓ) (ρ : Dev nD → PrngReg)

/-! ## Before the first region: the first stretch of host operations writes no argument -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem W3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results
theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results
theorem W3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results
theorem W3_arg10 (c : Dev nD) : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results
theorem W3_arg11 (c : Dev nD) : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  after_results
theorem W3_arg12 (c : Dev nD) : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  after_results
theorem W3_arg13 (c : Dev nD) : W3 m ρ c (Proc.devRef .tc main_arg13) = m ((c : Thread nD τ).loc main_arg13) := by
  show StableHlo.after hostOps0_2 (StableHlo.after hostOps0_1 (StableHlo.after hostOps0 (W0 m ρ c))) (Proc.devRef .tc main_arg13) = _
  after_results
theorem W3_arg14 (c : Dev nD) : W3 m ρ c (Proc.devRef .tc main_arg14) = m ((c : Thread nD τ).loc main_arg14) := by
  show StableHlo.after hostOps0_2 (StableHlo.after hostOps0_1 (StableHlo.after hostOps0 (W0 m ρ c))) (Proc.devRef .tc main_arg14) = _
  after_results
theorem W3_arg15 (c : Dev nD) : W3 m ρ c (Proc.devRef .tc main_arg15) = m ((c : Thread nD τ).loc main_arg15) := by
  show StableHlo.after hostOps0_2 (StableHlo.after hostOps0_1 (StableHlo.after hostOps0 (W0 m ρ c))) (Proc.devRef .tc main_arg15) = _
  after_results
theorem W3_arg16 (c : Dev nD) : W3 m ρ c (Proc.devRef .tc main_arg16) = m ((c : Thread nD τ).loc main_arg16) := by
  show StableHlo.after hostOps0_2 (StableHlo.after hostOps0_1 (StableHlo.after hostOps0 (W0 m ρ c))) (Proc.devRef .tc main_arg16) = _
  after_results

/-! ## After the first region: it writes only its result array -/
/-- The first region reads the item features through an input window, which it leaves as it found it. -/
theorem W4_arg0 (c : Dev nD) : W4 m ρ c (Proc.devRef .tc main_arg0) = m ((c : Thread nD τ).loc main_arg0) :=
  ((W4_arr m ρ c 1).trans (((dat0 (V3 m ρ) c).arrAt_in 1 rfl _).trans (A_eq0 (V3 m ρ) c 1))).trans (W3_arg0 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W4_arg16 (c : Dev nD) : W4 m ρ c (Proc.devRef .tc main_arg16) = m ((c : Thread nD τ).loc main_arg16) :=
  (W4_of_ne m ρ c main_arg16 (by decide)).trans (W3_arg16 m ρ c)

/-! ## Before the second region -/
theorem W7_arg1 (c : Dev nD) : W7 m ρ c (Proc.devRef .tc main_arg1) = m ((c : Thread nD τ).loc main_arg1) := by
  show StableHlo.after hostOps1_2 (StableHlo.after hostOps1_1 (StableHlo.after hostOps1 (W4 m ρ c))) (Proc.devRef .tc main_arg1) = _
  after_results
  exact W4_arg1 m ρ c
theorem W7_arg4 (c : Dev nD) : W7 m ρ c (Proc.devRef .tc main_arg4) = m ((c : Thread nD τ).loc main_arg4) := by
  show StableHlo.after hostOps1_2 (StableHlo.after hostOps1_1 (StableHlo.after hostOps1 (W4 m ρ c))) (Proc.devRef .tc main_arg4) = _
  after_results
  exact W4_arg4 m ρ c
theorem W7_arg5 (c : Dev nD) : W7 m ρ c (Proc.devRef .tc main_arg5) = m ((c : Thread nD τ).loc main_arg5) := by
  show StableHlo.after hostOps1_2 (StableHlo.after hostOps1_1 (StableHlo.after hostOps1 (W4 m ρ c))) (Proc.devRef .tc main_arg5) = _
  after_results
  exact W4_arg5 m ρ c
theorem W7_arg9 (c : Dev nD) : W7 m ρ c (Proc.devRef .tc main_arg9) = m ((c : Thread nD τ).loc main_arg9) := by
  show StableHlo.after hostOps1_2 (StableHlo.after hostOps1_1 (StableHlo.after hostOps1 (W4 m ρ c))) (Proc.devRef .tc main_arg9) = _
  after_results
  exact W4_arg9 m ρ c
theorem W7_arg10 (c : Dev nD) : W7 m ρ c (Proc.devRef .tc main_arg10) = m ((c : Thread nD τ).loc main_arg10) := by
  show StableHlo.after hostOps1_2 (StableHlo.after hostOps1_1 (StableHlo.after hostOps1 (W4 m ρ c))) (Proc.devRef .tc main_arg10) = _
  after_results
  exact W4_arg10 m ρ c
theorem W7_arg11 (c : Dev nD) : W7 m ρ c (Proc.devRef .tc main_arg11) = m ((c : Thread nD τ).loc main_arg11) := by
  show StableHlo.after hostOps1_2 (StableHlo.after hostOps1_1 (StableHlo.after hostOps1 (W4 m ρ c))) (Proc.devRef .tc main_arg11) = _
  after_results
  exact W4_arg11 m ρ c
theorem W7_arg12 (c : Dev nD) : W7 m ρ c (Proc.devRef .tc main_arg12) = m ((c : Thread nD τ).loc main_arg12) := by
  show StableHlo.after hostOps1_2 (StableHlo.after hostOps1_1 (StableHlo.after hostOps1 (W4 m ρ c))) (Proc.devRef .tc main_arg12) = _
  after_results
  exact W4_arg12 m ρ c
theorem W7_arg13 (c : Dev nD) : W7 m ρ c (Proc.devRef .tc main_arg13) = m ((c : Thread nD τ).loc main_arg13) := by
  show StableHlo.after hostOps1_2 (StableHlo.after hostOps1_1 (StableHlo.after hostOps1 (W4 m ρ c))) (Proc.devRef .tc main_arg13) = _
  after_results
  exact W4_arg13 m ρ c
theorem W7_arg14 (c : Dev nD) : W7 m ρ c (Proc.devRef .tc main_arg14) = m ((c : Thread nD τ).loc main_arg14) := by
  show StableHlo.after hostOps1_2 (StableHlo.after hostOps1_1 (StableHlo.after hostOps1 (W4 m ρ c))) (Proc.devRef .tc main_arg14) = _
  after_results
  exact W4_arg14 m ρ c
theorem W7_arg15 (c : Dev nD) : W7 m ρ c (Proc.devRef .tc main_arg15) = m ((c : Thread nD τ).loc main_arg15) := by
  show StableHlo.after hostOps1_2 (StableHlo.after hostOps1_1 (StableHlo.after hostOps1 (W4 m ρ c))) (Proc.devRef .tc main_arg15) = _
  after_results
  exact W4_arg15 m ρ c
theorem W7_arg16 (c : Dev nD) : W7 m ρ c (Proc.devRef .tc main_arg16) = m ((c : Thread nD τ).loc main_arg16) := by
  show StableHlo.after hostOps1_2 (StableHlo.after hostOps1_1 (StableHlo.after hostOps1 (W4 m ρ c))) (Proc.devRef .tc main_arg16) = _
  after_results
  exact W4_arg16 m ρ c

/-! ## After the second region -/
theorem W8_arg4 (c : Dev nD) : W8 m ρ c (Proc.devRef .tc main_arg4) = m ((c : Thread nD τ).loc main_arg4) :=
  (W8_of_ne m ρ c main_arg4 (by decide)).trans (W7_arg4 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W8_arg12 (c : Dev nD) : W8 m ρ c (Proc.devRef .tc main_arg12) = m ((c : Thread nD τ).loc main_arg12) :=
  (W8_of_ne m ρ c main_arg12 (by decide)).trans (W7_arg12 m ρ c)
theorem W8_arg13 (c : Dev nD) : W8 m ρ c (Proc.devRef .tc main_arg13) = m ((c : Thread nD τ).loc main_arg13) :=
  (W8_of_ne m ρ c main_arg13 (by decide)).trans (W7_arg13 m ρ c)
theorem W8_arg14 (c : Dev nD) : W8 m ρ c (Proc.devRef .tc main_arg14) = m ((c : Thread nD τ).loc main_arg14) :=
  (W8_of_ne m ρ c main_arg14 (by decide)).trans (W7_arg14 m ρ c)
theorem W8_arg15 (c : Dev nD) : W8 m ρ c (Proc.devRef .tc main_arg15) = m ((c : Thread nD τ).loc main_arg15) :=
  (W8_of_ne m ρ c main_arg15 (by decide)).trans (W7_arg15 m ρ c)
theorem W8_arg16 (c : Dev nD) : W8 m ρ c (Proc.devRef .tc main_arg16) = m ((c : Thread nD τ).loc main_arg16) :=
  (W8_of_ne m ρ c main_arg16 (by decide)).trans (W7_arg16 m ρ c)

/-! ## Before the third region -/
theorem W11_arg12 (c : Dev nD) : W11 m ρ c (Proc.devRef .tc main_arg12) = m ((c : Thread nD τ).loc main_arg12) := by
  show StableHlo.after hostOps2_2 (StableHlo.after hostOps2_1 (StableHlo.after hostOps2 (W8 m ρ c))) (Proc.devRef .tc main_arg12) = _
  after_results
  exact W8_arg12 m ρ c
theorem W11_arg13 (c : Dev nD) : W11 m ρ c (Proc.devRef .tc main_arg13) = m ((c : Thread nD τ).loc main_arg13) := by
  show StableHlo.after hostOps2_2 (StableHlo.after hostOps2_1 (StableHlo.after hostOps2 (W8 m ρ c))) (Proc.devRef .tc main_arg13) = _
  after_results
  exact W8_arg13 m ρ c
theorem W11_arg14 (c : Dev nD) : W11 m ρ c (Proc.devRef .tc main_arg14) = m ((c : Thread nD τ).loc main_arg14) := by
  show StableHlo.after hostOps2_2 (StableHlo.after hostOps2_1 (StableHlo.after hostOps2 (W8 m ρ c))) (Proc.devRef .tc main_arg14) = _
  after_results
  exact W8_arg14 m ρ c
theorem W11_arg15 (c : Dev nD) : W11 m ρ c (Proc.devRef .tc main_arg15) = m ((c : Thread nD τ).loc main_arg15) := by
  show StableHlo.after hostOps2_2 (StableHlo.after hostOps2_1 (StableHlo.after hostOps2 (W8 m ρ c))) (Proc.devRef .tc main_arg15) = _
  after_results
  exact W8_arg15 m ρ c
theorem W11_arg16 (c : Dev nD) : W11 m ρ c (Proc.devRef .tc main_arg16) = m ((c : Thread nD τ).loc main_arg16) := by
  show StableHlo.after hostOps2_2 (StableHlo.after hostOps2_1 (StableHlo.after hostOps2 (W8 m ρ c))) (Proc.devRef .tc main_arg16) = _
  after_results
  exact W8_arg16 m ρ c

/-! ## The bias rows -/

/-- The bias row the first region reads, at `(0, q)`: the bias vector at `q`. -/
theorem W3_v18_at (c : Dev nD) (q : Fin 256) :
    (W3 m ρ c (Proc.devRef .tc main_v18) : S1x256.Idx → EReal) (ix2 (0 : Fin 1) q) = (m ((c : Thread nD τ).loc main_arg7) : S256.Idx → EReal) (ix1 q) := by
  have e : (W3 m ρ c (Proc.devRef .tc main_v18) : S1x256.Idx → EReal)
      = shapeCast S1x256 (m ((c : Thread nD τ).loc main_arg7) : S256.Idx → EReal) shapeCasts_S256_S1x256 := by
    show StableHlo.after hostOps0_2 (StableHlo.after hostOps0_1 (StableHlo.after hostOps0 (W0 m ρ c))) (Proc.devRef .tc main_v18) = _
    after_results
    rfl
  rw [e]
  exact (shapeCast_addUnit_apply ![256] (m ((c : Thread nD τ).loc main_arg7) : S256.Idx → EReal) shapeCasts_S256_S1x256 (ix2 (0 : Fin 1) q)).trans
    (congrArg (m ((c : Thread nD τ).loc main_arg7) : S256.Idx → EReal) (funext fun a => by match a with | ⟨0, _⟩ => rfl))

/-- The bias row the second region reads, at `(0, q)`: the bias vector at `q`. -/
theorem W7_v38_at (c : Dev nD) (q : Fin 256) :
    (W7 m ρ c (Proc.devRef .tc main_v38) : S1x256.Idx → EReal) (ix2 (0 : Fin 1) q) = (m ((c : Thread nD τ).loc main_arg10) : S256.Idx → EReal) (ix1 q) := by
  have e : (W7 m ρ c (Proc.devRef .tc main_v38) : S1x256.Idx → EReal)
      = shapeCast S1x256 (m ((c : Thread nD τ).loc main_arg10) : S256.Idx → EReal) shapeCasts_S256_S1x256 := by
    show StableHlo.after hostOps1_2 (StableHlo.after hostOps1_1 (StableHlo.after hostOps1 (W4 m ρ c))) (Proc.devRef .tc main_v38) = _
    after_results
    rw [W4_arg10 m ρ c]
    rfl
  rw [e]
  exact (shapeCast_addUnit_apply ![256] (m ((c : Thread nD τ).loc main_arg10) : S256.Idx → EReal) shapeCasts_S256_S1x256 (ix2 (0 : Fin 1) q)).trans
    (congrArg (m ((c : Thread nD τ).loc main_arg10) : S256.Idx → EReal) (funext fun a => by match a with | ⟨0, _⟩ => rfl))

/-- The bias row the third region reads, at `(0, q)`: the bias vector at `q`. -/
theorem W11_v58_at (c : Dev nD) (q : Fin 256) :
    (W11 m ρ c (Proc.devRef .tc main_v58) : S1x256.Idx → EReal) (ix2 (0 : Fin 1) q) = (m ((c : Thread nD τ).loc main_arg13) : S256.Idx → EReal) (ix1 q) := by
  have e : (W11 m ρ c (Proc.devRef .tc main_v58) : S1x256.Idx → EReal)
      = shapeCast S1x256 (m ((c : Thread nD τ).loc main_arg13) : S256.Idx → EReal) shapeCasts_S256_S1x256 := by
    show StableHlo.after hostOps2_2 (StableHlo.after hostOps2_1 (StableHlo.after hostOps2 (W8 m ρ c))) (Proc.devRef .tc main_v58) = _
    after_results
    rw [W8_arg13 m ρ c]
    rfl
  rw [e]
  exact (shapeCast_addUnit_apply ![256] (m ((c : Thread nD τ).loc main_arg13) : S256.Idx → EReal) shapeCasts_S256_S1x256 (ix2 (0 : Fin 1) q)).trans
    (congrArg (m ((c : Thread nD τ).loc main_arg13) : S256.Idx → EReal) (funext fun a => by match a with | ⟨0, _⟩ => rfl))

/-- The bias row the third region reads, at `(0, q)`: the bias vector at `q`. -/
theorem W11_v59_at (c : Dev nD) (q : Fin 64) :
    (W11 m ρ c (Proc.devRef .tc main_v59) : S1x64.Idx → EReal) (ix2 (0 : Fin 1) q) = (m ((c : Thread nD τ).loc main_arg16) : S64.Idx → EReal) (ix1 q) := by
  have e : (W11 m ρ c (Proc.devRef .tc main_v59) : S1x64.Idx → EReal)
      = shapeCast S1x64 (m ((c : Thread nD τ).loc main_arg16) : S64.Idx → EReal) shapeCasts_S64_S1x64 := by
    show StableHlo.after hostOps2_2 (StableHlo.after hostOps2_1 (StableHlo.after hostOps2 (W8 m ρ c))) (Proc.devRef .tc main_v59) = _
    after_results
    rw [W8_arg16 m ρ c]
    rfl
  rw [e]
  exact (shapeCast_addUnit_apply ![64] (m ((c : Thread nD τ).loc main_arg16) : S64.Idx → EReal) shapeCasts_S64_S1x64 (ix2 (0 : Fin 1) q)).trans
    (congrArg (m ((c : Thread nD τ).loc main_arg16) : S64.Idx → EReal) (funext fun a => by match a with | ⟨0, _⟩ => rfl))

end Cert.KernelIdeal.Boundary

end
-- ==== Proof.SageSpec.lean ====
/-
  One layer of the user encoder, entry by entry, on the extended reals.

  A hidden layer sends the aggregated neighbour means `mean` (one row per destination node) and the destination
  nodes' own features `xdst` to `max (mean · wl + b + xdst · wr) 0`: entry `(r, q)` is the sum over the feature
  axis of row `r` of `mean` against column `q` of `wl`, plus the bias at `q`, plus the same sum for `xdst` and
  `wr`, clamped below at zero. The output layer sends hidden rows `h` to `h · wlin + blin`. The bias is taken as a
  function of the column so that a length-N vector and a 1×N row read the same way. The zero that clamps is kept as
  the word the programs print; nothing here evaluates it.
-/
import Idealize.ShloMosaic.Lib.ValueIdx
import Idealize.ShloMosaic.PureOps.Ideal

noncomputable section

open scoped BigOperators
open Idealize.ShloMosaic Idealize.ShloMosaic.ValueIdx

namespace Cert.Sage

/-- Entry `(r, q)` of a hidden layer: `max (Σₖ mean[r,k]·wl[k,q] + b[q] + Σₖ xdst[r,k]·wr[k,q]) 0`. -/
def hiddenAt {M K N : ℕ} (mean xdst : (⟨2, ![M, K]⟩ : Shape).Idx → EReal) (wl wr : (⟨2, ![K, N]⟩ : Shape).Idx → EReal)
    (b : Fin N → EReal) (r : Fin M) (q : Fin N) : EReal :=
  max ((∑ k : Fin K, mean (ix2 r k) * wl (ix2 k q)) + b q + ∑ k : Fin K, xdst (ix2 r k) * wr (ix2 k q))
    (Ideal.ofBits .f32 0x00000000#32)

/-- Entry `(r, q)` of the output layer: `Σₖ h[r,k]·w[k,q] + b[q]`, the hidden rows given entry by entry. -/
def linearAt {M K N : ℕ} (h : Fin M → Fin K → EReal) (w : (⟨2, ![K, N]⟩ : Shape).Idx → EReal)
    (b : Fin N → EReal) (r : Fin M) (q : Fin N) : EReal :=
  (∑ k : Fin K, h r k * w (ix2 k q)) + b q

end Cert.Sage

end
-- ==== Proof.SagePayHidden.lean ====
/-
  The two hidden-layer kernels' arithmetic at one entry of a 2000-row block.

  Each kernel loads a block of aggregated means and a block of destination features (2000 × 128 each), the two weight
  matrices (128 × 256) and the bias as a 1 × 256 row, and stores `max (mean · wl + b + xdst · wr) 0`. Read at entry
  `(p, q)` on the extended reals this is the specification's hidden-layer entry of the loaded blocks: a product into
  the zero accumulator is the plain sum over the 128 contracted coordinates, and changing a value's float format is
  the identity.
-/
import proofs.«134559_j11768210391489_1_alg».proof.Proof.Gen.KernelIdeal.Skeleton
import proofs.«134559_j11768210391489_1_alg».proof.Proof.SageSpec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Entry

open Cert.KernelIdeal Cert.KernelIdeal.Gen

/-- The left operand's row coordinate is the output's row. -/
theorem mm128_l0 (i : S2000x256.Idx) (κ : dot_S2000x128_S128x256_S2000x256_1_0_0_1_n_n.contr.Idx) : (dot_S2000x128_S128x256_S2000x256_1_0_0_1_n_n.lhsIdx i κ 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The right operand's column coordinate is the output's column. -/
theorem mm128_r1 (i : S2000x256.Idx) (κ : dot_S2000x128_S128x256_S2000x256_1_0_0_1_n_n.contr.Idx) : (dot_S2000x128_S128x256_S2000x256_1_0_0_1_n_n.rhsIdx i κ 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl
/-- The [2000,128] × [128,256] block product into the zero accumulator, at entry `(p, q)`: the sum over the
    contracted axis of row `p` of the left block against column `q` of the right one. -/
theorem mm128_at (a : FVec Ideal S2000x128 .bf16) (w : FVec Ideal S128x256 .bf16) (p : Fin 2000) (q : Fin 256) :
    matmul dot_S2000x128_S128x256_S2000x256_1_0_0_1_n_n none a w (constant (F := Ideal) S2000x256 .f32 0x00000000#32) (ix2 p q)
      = ∑ k : Fin 128, a (ix2 p k) * w (ix2 k q) := by
  refine (Ideal.matmul_constant_zero_apply dot_S2000x128_S128x256_S2000x256_1_0_0_1_n_n none a w (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun d => Fin.ext (by
    match d with
    | ⟨0, _⟩ => exact mm128_l0 _ _
    | ⟨1, _⟩ => exact (dot_S2000x128_S128x256_S2000x256_1_0_0_1_n_n.lhsIdx_val_of_single rfl _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun d => Fin.ext (by
    match d with
    | ⟨0, _⟩ => exact (dot_S2000x128_S128x256_S2000x256_1_0_0_1_n_n.rhsIdx_val_of_single rfl _ _).trans hk
    | ⟨1, _⟩ => exact mm128_r1 _ _)
  rw [el, er]

/-- The 1×256 bias row broadcast down the 2000 rows, at entry `(p, q)`: the bias at column `q`. -/
theorem bias256_at (b : Vec Ideal S1x256 .f32) (p : Fin 2000) (q : Fin 256) :
    broadcastTo S2000x256 (shapeCast S1x256 b shapeCasts_S1x256_S1x256) broadcasts_S1x256_S2000x256 (ix2 p q) = b (ix2 (0 : Fin 1) q) := by
  rw [shapeCast_self]
  exact broadcastTo_apply b broadcasts_S1x256_S2000x256 (ix2 p q) (ix2 (0 : Fin 1) q) (fun d => match d with
    | ⟨0, _⟩ => by show (0 : Nat) = if (1 : Nat) = 1 then 0 else _; rw [if_pos rfl]
    | ⟨1, _⟩ => by show q.val = if (256 : Nat) = 1 then 0 else q.val; rw [if_neg (by decide)])

/-- Kernel 0's stored value at entry `(p, q)` of its 2000-row block is the hidden layer's entry of the loaded
    blocks: the two narrowings to bf16 and the reshapes to the same shape change nothing at the ideal values, each
    product into zero is its sum, the bias row is read at its column. -/
theorem pay0_at (v0 v3 : Vec Ideal S2000x128 .f32) (v5 v7 : Vec Ideal S128x256 .f32) (v10 : Vec Ideal S1x256 .f32)
    (p : Fin 2000) (q : Fin 256) :
    k0_pay1 (F := Ideal) v0 v3 v5 v7 v10 (ix2 p q)
      = Cert.Sage.hiddenAt (M := 2000) (K := 128) (N := 256) v0 v3 v5 v7 (fun q => v10 (ix2 (0 : Fin 1) q)) p q := by
  unfold k0_pay1 Cert.Sage.hiddenAt
  dsimp only
  show max (matmul dot_S2000x128_S128x256_S2000x256_1_0_0_1_n_n none _ _ _ (ix2 p q)
      + broadcastTo S2000x256 _ _ (ix2 p q)
      + matmul dot_S2000x128_S128x256_S2000x256_1_0_0_1_n_n none _ _ _ (ix2 p q)) _ = _
  rw [mm128_at, mm128_at, bias256_at, shapeCast_self]
  rfl

/-- Kernel 1's stored value at entry `(p, q)` of its 2000-row block is the hidden layer's entry of the loaded
    blocks: the two narrowings to bf16 and the reshapes to the same shape change nothing at the ideal values, each
    product into zero is its sum, the bias row is read at its column. -/
theorem pay1_at (v0 v3 : Vec Ideal S2000x128 .f32) (v5 v7 : Vec Ideal S128x256 .f32) (v10 : Vec Ideal S1x256 .f32)
    (p : Fin 2000) (q : Fin 256) :
    k1_pay1 (F := Ideal) v0 v3 v5 v7 v10 (ix2 p q)
      = Cert.Sage.hiddenAt (M := 2000) (K := 128) (N := 256) v0 v3 v5 v7 (fun q => v10 (ix2 (0 : Fin 1) q)) p q := by
  unfold k1_pay1 Cert.Sage.hiddenAt
  dsimp only
  show max (matmul dot_S2000x128_S128x256_S2000x256_1_0_0_1_n_n none _ _ _ (ix2 p q)
      + broadcastTo S2000x256 _ _ (ix2 p q)
      + matmul dot_S2000x128_S128x256_S2000x256_1_0_0_1_n_n none _ _ _ (ix2 p q)) _ = _
  rw [mm128_at, mm128_at, bias256_at, shapeCast_self]
  rfl

end Cert.KernelIdeal.Entry

end
-- ==== Proof.SageCongr.lean ====
/-
  A layer's entry depends on its operands only through the row and the column read.

  The hidden layer's entry `(r, q)` reads row `r` of the means and of the destination features, column `q` of the two
  weight matrices and the bias at `q`; the output layer's entry reads row `r` of the hidden features, column `q` of the
  output matrix and the bias at `q`. So two sets of operands, possibly arrays of different extents read at different
  positions (a block of an array and the array itself), give the same entry as soon as they agree along that row and
  that column.
-/
import proofs.«134559_j11768210391489_1_alg».proof.Proof.SageSpec

noncomputable section

open scoped BigOperators
open Idealize.ShloMosaic Idealize.ShloMosaic.ValueIdx

namespace Cert.Sage

/-- Hidden-layer entries agree when the operands agree along the row and the column read. -/
theorem hiddenAt_ext {M M' K N N' : ℕ} (mean xdst : (⟨2, ![M, K]⟩ : Shape).Idx → EReal)
    (mean' xdst' : (⟨2, ![M', K]⟩ : Shape).Idx → EReal) (wl wr : (⟨2, ![K, N]⟩ : Shape).Idx → EReal)
    (wl' wr' : (⟨2, ![K, N']⟩ : Shape).Idx → EReal) (b : Fin N → EReal) (b' : Fin N' → EReal)
    (r : Fin M) (r' : Fin M') (q : Fin N) (q' : Fin N')
    (hm : ∀ k : Fin K, mean (ix2 r k) = mean' (ix2 r' k)) (hx : ∀ k : Fin K, xdst (ix2 r k) = xdst' (ix2 r' k))
    (hl : ∀ k : Fin K, wl (ix2 k q) = wl' (ix2 k q')) (hr : ∀ k : Fin K, wr (ix2 k q) = wr' (ix2 k q'))
    (hb : b q = b' q') :
    hiddenAt mean xdst wl wr b r q = hiddenAt mean' xdst' wl' wr' b' r' q' := by
  unfold hiddenAt
  have e1 : (∑ k : Fin K, mean (ix2 r k) * wl (ix2 k q)) = ∑ k : Fin K, mean' (ix2 r' k) * wl' (ix2 k q') :=
    Finset.sum_congr rfl fun k _ => by rw [hm k, hl k]
  have e2 : (∑ k : Fin K, xdst (ix2 r k) * wr (ix2 k q)) = ∑ k : Fin K, xdst' (ix2 r' k) * wr' (ix2 k q') :=
    Finset.sum_congr rfl fun k _ => by rw [hx k, hr k]
  rw [e1, e2, hb]

/-- Output-layer entries agree when the hidden rows, the output matrix's column and the bias agree. -/
theorem linearAt_ext {M M' K N N' : ℕ} (h : Fin M → Fin K → EReal) (h' : Fin M' → Fin K → EReal)
    (w : (⟨2, ![K, N]⟩ : Shape).Idx → EReal) (w' : (⟨2, ![K, N']⟩ : Shape).Idx → EReal)
    (b : Fin N → EReal) (b' : Fin N' → EReal) (r : Fin M) (r' : Fin M') (q : Fin N) (q' : Fin N')
    (hh : ∀ k : Fin K, h r k = h' r' k) (hw : ∀ k : Fin K, w (ix2 k q) = w' (ix2 k q')) (hb : b q = b' q') :
    linearAt h w b r q = linearAt h' w' b' r' q' := by
  unfold linearAt
  have e1 : (∑ k : Fin K, h r k * w (ix2 k q)) = ∑ k : Fin K, h' r' k * w' (ix2 k q') :=
    Finset.sum_congr rfl fun k _ => by rw [hh k, hw k]
  rw [e1, hb]

end Cert.Sage

end
-- ==== Proof.SageRegion0.lean ====
/-
  What the first hidden-layer kernel (items to items) leaves in its result array, as one function of the arrays the region finds on entry.

  The grid has 50 points; point `t` reads rows `2000·t … 2000·t + 1999` of the aggregated means and of the
  destination features, the two whole weight matrices and the whole bias row, and writes back rows
  `2000·t … 2000·t + 1999` of the result. Every written block is the hidden layer of the blocks read, so it is the
  corresponding block of the hidden layer of the whole arrays; the 50 blocks tile the 100000 rows (row `r` is in
  block `r / 2000`), hence the result array ends holding that hidden layer.
-/
import proofs.«134559_j11768210391489_1_alg».proof.Proof.Gen.KernelIdeal.Frame
import proofs.«134559_j11768210391489_1_alg».proof.Proof.SagePayHidden
import proofs.«134559_j11768210391489_1_alg».proof.Proof.SageCongr
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row operands and the result are at block `(t, 0)`, the weights and
    the bias at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The hidden layer of whole arrays: entry `i` reads row `i 0` of the means and the features and column `i 1` of the
    weights and of the bias row. -/
abbrev arr (mean xdst : S100000x128.Idx → EReal) (wl : S128x256.Idx → EReal) (b : S1x256.Idx → EReal)
    (wr : S128x256.Idx → EReal) : S100000x256.Idx → EReal :=
  fun i => Cert.Sage.hiddenAt (M := 100000) (K := 128) (N := 256) mean xdst wl wr (fun q => b (ix2 (0 : Fin 1) q)) (i 0) (i 1)

/-- What the body leaves in the result's buffer is the hidden layer of the loaded blocks, entry by entry. -/
theorem block_eq (x0 x1 : Vec Ideal S2000x128 .f32) (x2 : Vec Ideal S128x256 .f32) (x3 : Vec Ideal S1x256 .f32)
    (x4 : Vec Ideal S128x256 .f32) (j : S2000x256.Idx) :
    out0_5 (F := Ideal) x0 x1 x2 x3 x4 j
      = Cert.Sage.hiddenAt (M := 2000) (K := 128) (N := 256) x0 x1 x2 x4 (fun q => x3 (ix2 (0 : Fin 1) q)) (j 0) (j 1) := by
  unfold out0_5
  rw [View.canon_unit_zero hz]
  simp only [View.ld_unit_zero (S := S2000x128) hz, View.ld_unit_zero (S := S128x256) hz, View.ld_unit_zero (S := S1x256) hz]
  obtain ⟨p, q, rfl⟩ : ∃ (p : Fin 2000) (q : Fin 256), j = ix2 p q := ⟨j 0, j 1, eq_ix2 j⟩
  exact Cert.KernelIdeal.Entry.pay0_at x0 x1 x2 x4 x3 p q

/-- Row `p` of point `t`'s block of the means is row `2000·t + p` of the array. -/
theorem read_mean (c : Dev nD) (t : Fin cfg0.N) (p : Fin 2000) (r : Fin 100000) (k : Fin 128) (hr : r.val = t.val * 2000 + p.val) :
    (iblk0 V c 0 t : Vec Ideal S2000x128 .f32) (ix2 p k) = V c main_v17 (ix2 r k) := by
  obtain ⟨e0, e1, -⟩ := idx_facts t
  unfold iblk0
  rw [View.read_apply]
  show V c main_v17 _ = V c main_v17 _
  refine congrArg (V c main_v17) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row `p` of point `t`'s block of the destination features is row `2000·t + p` of the array. -/
theorem read_x (c : Dev nD) (t : Fin cfg0.N) (p : Fin 2000) (r : Fin 100000) (k : Fin 128) (hr : r.val = t.val * 2000 + p.val) :
    (iblk0 V c 1 t : Vec Ideal S2000x128 .f32) (ix2 p k) = V c main_arg0 (ix2 r k) := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The block of the first weight matrix is the matrix. -/
theorem read_wl (c : Dev nD) (t : Fin cfg0.N) (k : Fin 128) (q q' : Fin 256) (hq : q'.val = q.val) :
    (iblk0 V c 2 t : Vec Ideal S128x256 .f32) (ix2 k q) = V c main_arg6 (ix2 k q') := by
  obtain ⟨-, -, -, -, e0, e1, -⟩ := idx_facts t
  unfold iblk0
  rw [View.read_apply]
  show V c main_arg6 _ = V c main_arg6 _
  refine congrArg (V c main_arg6) (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q'.val; rw [e1, hq]; omega

/-- The block of the bias row is the row. -/
theorem read_b (c : Dev nD) (t : Fin cfg0.N) (q q' : Fin 256) (hq : q'.val = q.val) :
    (iblk0 V c 3 t : Vec Ideal S1x256 .f32) (ix2 (0 : Fin 1) q) = V c main_v18 (ix2 (0 : Fin 1) q') := by
  obtain ⟨-, -, -, -, -, -, e0, e1, -⟩ := idx_facts t
  unfold iblk0
  rw [View.read_apply]
  show V c main_v18 _ = V c main_v18 _
  refine congrArg (V c main_v18) (funext fun a => Fin.ext ?_)
  match a with
  | ⟨0, _⟩ => show win0_3.index t (0 : Fin 2) * 1 + 1 * 0 = 0; rw [e0]
  | ⟨1, _⟩ => show win0_3.index t (1 : Fin 2) * 256 + 1 * q.val = q'.val; rw [e1, hq]; omega

/-- The block of the second weight matrix is the matrix. -/
theorem read_wr (c : Dev nD) (t : Fin cfg0.N) (k : Fin 128) (q q' : Fin 256) (hq : q'.val = q.val) :
    (iblk0 V c 4 t : Vec Ideal S128x256 .f32) (ix2 k q) = V c main_arg8 (ix2 k q') := by
  obtain ⟨-, -, -, -, -, -, -, -, e0, e1, -⟩ := idx_facts t
  unfold iblk0
  rw [View.read_apply]
  show V c main_arg8 _ = V c main_arg8 _
  refine congrArg (V c main_arg8) (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q'.val; rw [e1, hq]; omega

/-- What point `t` writes back is block `t` of the hidden layer of the arrays as the region finds them. -/
theorem flushed_eq (c : Dev nD) (t : Fin cfg0.N) :
    (dat0 V c).flushed 5 t = ((cfg0.win 5).blk t).view.read (Elt Ideal)
      (arr (V c main_v17) (V c main_arg0) (V c main_arg6) (V c main_v18) (V c main_arg8)) := by
  show (cfg0.win 5).cut (grid0.coords t) ((dat0 V c).after 5 t) = _
  rw [after0_5]
  obtain ⟨-, -, -, -, -, -, -, -, -, -, e0, e1⟩ := idx_facts t
  funext j
  have hr : ((((cfg0.win 5).blk t).view.emb j) 0).val = t.val * 2000 + (j 0).val := by
    show win0_5.index t (0 : Fin 2) * 2000 + 1 * (j 0).val = _; rw [e0]; omega
  have hq : ((((cfg0.win 5).blk t).view.emb j) 1).val = (j 1).val := by
    show win0_5.index t (1 : Fin 2) * 256 + 1 * (j 1).val = _; rw [e1]; omega
  refine (block_eq (iblk0 V c 0 t) (iblk0 V c 1 t) (iblk0 V c 2 t) (iblk0 V c 3 t) (iblk0 V c 4 t) j).trans ?_
  rw [View.read_apply]
  exact Cert.Sage.hiddenAt_ext (M := 2000) (M' := 100000) (K := 128) (N := 256) (N' := 256)
    (iblk0 V c 0 t : Vec Ideal S2000x128 .f32) (iblk0 V c 1 t : Vec Ideal S2000x128 .f32) (V c main_v17) (V c main_arg0)
    (iblk0 V c 2 t : Vec Ideal S128x256 .f32) (iblk0 V c 4 t : Vec Ideal S128x256 .f32) (V c main_arg6) (V c main_arg8)
    (fun q => (iblk0 V c 3 t : Vec Ideal S1x256 .f32) (ix2 (0 : Fin 1) q)) (fun q => V c main_v18 (ix2 (0 : Fin 1) q))
    (j 0) ((((cfg0.win 5).blk t).view.emb j) 0) (j 1) ((((cfg0.win 5).blk t).view.emb j) 1)
    (fun k => read_mean V c t (j 0) ((((cfg0.win 5).blk t).view.emb j) 0) k hr)
    (fun k => read_x V c t (j 0) ((((cfg0.win 5).blk t).view.emb j) 0) k hr)
    (fun k => read_wl V c t k (j 1) ((((cfg0.win 5).blk t).view.emb j) 1) hq)
    (fun k => read_wr V c t k (j 1) ((((cfg0.win 5).blk t).view.emb j) 1) hq)
    (read_b V c t (j 1) ((((cfg0.win 5).blk t).view.emb j) 1) hq)

/-- An index of the result array is in point `t`'s block iff each coordinate is in the block's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19).slice (win0_5.rect t)).set ↔ _
  rw [View.set_slice_whole, Rect.mem_set_unit]
  exact Iff.rfl

/-- The result array after the region: the hidden layer of the arrays as the region finds them. -/
theorem final (c : Dev nD) : (dat0 V c).arrAt 5 cfg0.N
    = arr (V c main_v17) (V c main_arg0) (V c main_arg6) (V c main_v18) (V c main_arg8) :=
  (dat0 V c).arrAt_eq_of_cover 5 _ (fun t _ => flushed_eq V c t) fun i => by
    have hi0 : (i 0).val < 100000 := (i 0).isLt
    have hi1 : (i 1).val < 256 := (i 1).isLt
    have hN : cfg0.N = 50 := N_0
    refine ⟨⟨(i 0).val / 2000, by rw [hN]; omega⟩, flush0_5 _, ?_⟩
    rw [mem_blk]
    obtain ⟨-, -, -, -, -, -, -, -, -, -, e0, e1⟩ := idx_facts ⟨(i 0).val / 2000, by rw [hN]; omega⟩
    intro a
    match a with
    | ⟨0, _⟩ =>
      show win0_5.index _ (0 : Fin 2) * 2000 ≤ (i 0).val ∧ (i 0).val < win0_5.index _ (0 : Fin 2) * 2000 + 2000
      rw [e0]; show (i 0).val / 2000 * 2000 ≤ (i 0).val ∧ (i 0).val < (i 0).val / 2000 * 2000 + 2000; omega
    | ⟨1, _⟩ =>
      show win0_5.index _ (1 : Fin 2) * 256 ≤ (i 1).val ∧ (i 1).val < win0_5.index _ (1 : Fin 2) * 256 + 256
      rw [e1]; omega

end Cert.KernelIdeal.Layer0

end
-- ==== Proof.SageRegion1.lean ====
/-
  What the second hidden-layer kernel (items to users) leaves in its result array, as one function of the arrays the region finds on entry.

  The grid has 25 points; point `t` reads rows `2000·t … 2000·t + 1999` of the aggregated means and of the
  destination features, the two whole weight matrices and the whole bias row, and writes back rows
  `2000·t … 2000·t + 1999` of the result. Every written block is the hidden layer of the blocks read, so it is the
  corresponding block of the hidden layer of the whole arrays; the 25 blocks tile the 50000 rows (row `r` is in
  block `r / 2000`), hence the result array ends holding that hidden layer.
-/
import proofs.«134559_j11768210391489_1_alg».proof.Proof.Gen.KernelIdeal.Frame
import proofs.«134559_j11768210391489_1_alg».proof.Proof.SagePayHidden
import proofs.«134559_j11768210391489_1_alg».proof.Proof.SageCongr
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row operands and the result are at block `(t, 0)`, the weights and
    the bias at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The hidden layer of whole arrays: entry `i` reads row `i 0` of the means and the features and column `i 1` of the
    weights and of the bias row. -/
abbrev arr (mean xdst : S50000x128.Idx → EReal) (wl : S128x256.Idx → EReal) (b : S1x256.Idx → EReal)
    (wr : S128x256.Idx → EReal) : S50000x256.Idx → EReal :=
  fun i => Cert.Sage.hiddenAt (M := 50000) (K := 128) (N := 256) mean xdst wl wr (fun q => b (ix2 (0 : Fin 1) q)) (i 0) (i 1)

/-- What the body leaves in the result's buffer is the hidden layer of the loaded blocks, entry by entry. -/
theorem block_eq (x0 x1 : Vec Ideal S2000x128 .f32) (x2 : Vec Ideal S128x256 .f32) (x3 : Vec Ideal S1x256 .f32)
    (x4 : Vec Ideal S128x256 .f32) (j : S2000x256.Idx) :
    out1_5 (F := Ideal) x0 x1 x2 x3 x4 j
      = Cert.Sage.hiddenAt (M := 2000) (K := 128) (N := 256) x0 x1 x2 x4 (fun q => x3 (ix2 (0 : Fin 1) q)) (j 0) (j 1) := by
  unfold out1_5
  rw [View.canon_unit_zero hz]
  simp only [View.ld_unit_zero (S := S2000x128) hz, View.ld_unit_zero (S := S128x256) hz, View.ld_unit_zero (S := S1x256) hz]
  obtain ⟨p, q, rfl⟩ : ∃ (p : Fin 2000) (q : Fin 256), j = ix2 p q := ⟨j 0, j 1, eq_ix2 j⟩
  exact Cert.KernelIdeal.Entry.pay1_at x0 x1 x2 x4 x3 p q

/-- Row `p` of point `t`'s block of the means is row `2000·t + p` of the array. -/
theorem read_mean (c : Dev nD) (t : Fin cfg1.N) (p : Fin 2000) (r : Fin 50000) (k : Fin 128) (hr : r.val = t.val * 2000 + p.val) :
    (iblk1 V c 0 t : Vec Ideal S2000x128 .f32) (ix2 p k) = V c main_v37 (ix2 r k) := by
  obtain ⟨e0, e1, -⟩ := idx_facts t
  unfold iblk1
  rw [View.read_apply]
  show V c main_v37 _ = V c main_v37 _
  refine congrArg (V c main_v37) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row `p` of point `t`'s block of the destination features is row `2000·t + p` of the array. -/
theorem read_x (c : Dev nD) (t : Fin cfg1.N) (p : Fin 2000) (r : Fin 50000) (k : Fin 128) (hr : r.val = t.val * 2000 + p.val) :
    (iblk1 V c 1 t : Vec Ideal S2000x128 .f32) (ix2 p k) = V c main_arg1 (ix2 r k) := by
  obtain ⟨-, -, e0, e1, -⟩ := idx_facts t
  unfold iblk1
  rw [View.read_apply]
  show V c main_arg1 _ = V c main_arg1 _
  refine congrArg (V c main_arg1) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The block of the first weight matrix is the matrix. -/
theorem read_wl (c : Dev nD) (t : Fin cfg1.N) (k : Fin 128) (q q' : Fin 256) (hq : q'.val = q.val) :
    (iblk1 V c 2 t : Vec Ideal S128x256 .f32) (ix2 k q) = V c main_arg9 (ix2 k q') := by
  obtain ⟨-, -, -, -, e0, e1, -⟩ := idx_facts t
  unfold iblk1
  rw [View.read_apply]
  show V c main_arg9 _ = V c main_arg9 _
  refine congrArg (V c main_arg9) (funext fun a => Fin.ext ?_)
  match a with
  | ⟨0, _⟩ => show win1_2.index t (0 : Fin 2) * 128 + 1 * k.val = k.val; rw [e0]; omega
  | ⟨1, _⟩ => show win1_2.index t (1 : Fin 2) * 256 + 1 * q.val = q'.val; rw [e1, hq]; omega

/-- The block of the bias row is the row. -/
theorem read_b (c : Dev nD) (t : Fin cfg1.N) (q q' : Fin 256) (hq : q'.val = q.val) :
    (iblk1 V c 3 t : Vec Ideal S1x256 .f32) (ix2 (0 : Fin 1) q) = V c main_v38 (ix2 (0 : Fin 1) q') := by
  obtain ⟨-, -, -, -, -, -, e0, e1, -⟩ := idx_facts t
  unfold iblk1
  rw [View.read_apply]
  show V c main_v38 _ = V c main_v38 _
  refine congrArg (V c main_v38) (funext fun a => Fin.ext ?_)
  match a with
  | ⟨0, _⟩ => show win1_3.index t (0 : Fin 2) * 1 + 1 * 0 = 0; rw [e0]
  | ⟨1, _⟩ => show win1_3.index t (1 : Fin 2) * 256 + 1 * q.val = q'.val; rw [e1, hq]; omega

/-- The block of the second weight matrix is the matrix. -/
theorem read_wr (c : Dev nD) (t : Fin cfg1.N) (k : Fin 128) (q q' : Fin 256) (hq : q'.val = q.val) :
    (iblk1 V c 4 t : Vec Ideal S128x256 .f32) (ix2 k q) = V c main_arg11 (ix2 k q') := by
  obtain ⟨-, -, -, -, -, -, -, -, e0, e1, -⟩ := idx_facts t
  unfold iblk1
  rw [View.read_apply]
  show V c main_arg11 _ = V c main_arg11 _
  refine congrArg (V c main_arg11) (funext fun a => Fin.ext ?_)
  match a with
  | ⟨0, _⟩ => show win1_4.index t (0 : Fin 2) * 128 + 1 * k.val = k.val; rw [e0]; omega
  | ⟨1, _⟩ => show win1_4.index t (1 : Fin 2) * 256 + 1 * q.val = q'.val; rw [e1, hq]; omega

/-- What point `t` writes back is block `t` of the hidden layer of the arrays as the region finds them. -/
theorem flushed_eq (c : Dev nD) (t : Fin cfg1.N) :
    (dat1 V c).flushed 5 t = ((cfg1.win 5).blk t).view.read (Elt Ideal)
      (arr (V c main_v37) (V c main_arg1) (V c main_arg9) (V c main_v38) (V c main_arg11)) := by
  show (cfg1.win 5).cut (grid1.coords t) ((dat1 V c).after 5 t) = _
  rw [after1_5]
  obtain ⟨-, -, -, -, -, -, -, -, -, -, e0, e1⟩ := idx_facts t
  funext j
  have hr : ((((cfg1.win 5).blk t).view.emb j) 0).val = t.val * 2000 + (j 0).val := by
    show win1_5.index t (0 : Fin 2) * 2000 + 1 * (j 0).val = _; rw [e0]; omega
  have hq : ((((cfg1.win 5).blk t).view.emb j) 1).val = (j 1).val := by
    show win1_5.index t (1 : Fin 2) * 256 + 1 * (j 1).val = _; rw [e1]; omega
  refine (block_eq (iblk1 V c 0 t) (iblk1 V c 1 t) (iblk1 V c 2 t) (iblk1 V c 3 t) (iblk1 V c 4 t) j).trans ?_
  rw [View.read_apply]
  exact Cert.Sage.hiddenAt_ext (M := 2000) (M' := 50000) (K := 128) (N := 256) (N' := 256)
    (iblk1 V c 0 t : Vec Ideal S2000x128 .f32) (iblk1 V c 1 t : Vec Ideal S2000x128 .f32) (V c main_v37) (V c main_arg1)
    (iblk1 V c 2 t : Vec Ideal S128x256 .f32) (iblk1 V c 4 t : Vec Ideal S128x256 .f32) (V c main_arg9) (V c main_arg11)
    (fun q => (iblk1 V c 3 t : Vec Ideal S1x256 .f32) (ix2 (0 : Fin 1) q)) (fun q => V c main_v38 (ix2 (0 : Fin 1) q))
    (j 0) ((((cfg1.win 5).blk t).view.emb j) 0) (j 1) ((((cfg1.win 5).blk t).view.emb j) 1)
    (fun k => read_mean V c t (j 0) ((((cfg1.win 5).blk t).view.emb j) 0) k hr)
    (fun k => read_x V c t (j 0) ((((cfg1.win 5).blk t).view.emb j) 0) k hr)
    (fun k => read_wl V c t k (j 1) ((((cfg1.win 5).blk t).view.emb j) 1) hq)
    (fun k => read_wr V c t k (j 1) ((((cfg1.win 5).blk t).view.emb j) 1) hq)
    (read_b V c t (j 1) ((((cfg1.win 5).blk t).view.emb j) 1) hq)

/-- An index of the result array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v39).slice (win1_5.rect t)).set ↔ _
  rw [View.set_slice_whole, Rect.mem_set_unit]
  exact Iff.rfl

/-- The result array after the region: the hidden layer of the arrays as the region finds them. -/
theorem final (c : Dev nD) : (dat1 V c).arrAt 5 cfg1.N
    = arr (V c main_v37) (V c main_arg1) (V c main_arg9) (V c main_v38) (V c main_arg11) :=
  (dat1 V c).arrAt_eq_of_cover 5 _ (fun t _ => flushed_eq V c t) fun i => by
    have hi0 : (i 0).val < 50000 := (i 0).isLt
    have hi1 : (i 1).val < 256 := (i 1).isLt
    have hN : cfg1.N = 25 := N_1
    refine ⟨⟨(i 0).val / 2000, by rw [hN]; omega⟩, flush1_5 _, ?_⟩
    rw [mem_blk]
    obtain ⟨-, -, -, -, -, -, -, -, -, -, e0, e1⟩ := idx_facts ⟨(i 0).val / 2000, by rw [hN]; omega⟩
    intro a
    match a with
    | ⟨0, _⟩ =>
      show win1_5.index _ (0 : Fin 2) * 2000 ≤ (i 0).val ∧ (i 0).val < win1_5.index _ (0 : Fin 2) * 2000 + 2000
      rw [e0]; show (i 0).val / 2000 * 2000 ≤ (i 0).val ∧ (i 0).val < (i 0).val / 2000 * 2000 + 2000; omega
    | ⟨1, _⟩ =>
      show win1_5.index _ (1 : Fin 2) * 256 ≤ (i 1).val ∧ (i 1).val < win1_5.index _ (1 : Fin 2) * 256 + 256
      rw [e1]; omega

end Cert.KernelIdeal.Layer1

end
-- ==== Proof.SagePayFinal.lean ====
/-
  The last kernel's arithmetic at one entry of a 2000-row block.

  It loads a block of aggregated means and a block of the users' hidden features (2000 × 256 each), two 256 × 256
  weight matrices, a 1 × 256 bias row, the 256 × 64 output matrix and its 1 × 64 bias row, forms the hidden layer
  `max (mean · wl + b + xdst · wr) 0` and stores `hidden · wlin + blin`. Read at entry `(p, q)` on the extended reals
  this is the specification's output-layer entry over the specification's hidden-layer entries of the loaded blocks.
-/
import proofs.«134559_j11768210391489_1_alg».proof.Proof.Gen.KernelIdeal.Skeleton
import proofs.«134559_j11768210391489_1_alg».proof.Proof.SageSpec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.EntryFinal

open Cert.KernelIdeal Cert.KernelIdeal.Gen

/-- The left operand's row coordinate is the output's row. -/
theorem mm256_l0 (i : S2000x256.Idx) (κ : dot_S2000x256_S256x256_S2000x256_1_0_0_1_n_n.contr.Idx) : (dot_S2000x256_S256x256_S2000x256_1_0_0_1_n_n.lhsIdx i κ 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The right operand's column coordinate is the output's column. -/
theorem mm256_r1 (i : S2000x256.Idx) (κ : dot_S2000x256_S256x256_S2000x256_1_0_0_1_n_n.contr.Idx) : (dot_S2000x256_S256x256_S2000x256_1_0_0_1_n_n.rhsIdx i κ 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl
/-- The [2000,256] × [256,256] block product into the zero accumulator, at entry `(p, q)`: the sum over the
    contracted axis of row `p` of the left block against column `q` of the right one. -/
theorem mm256_at (a : FVec Ideal S2000x256 .bf16) (w : FVec Ideal S256x256 .bf16) (p : Fin 2000) (q : Fin 256) :
    matmul dot_S2000x256_S256x256_S2000x256_1_0_0_1_n_n none a w (constant (F := Ideal) S2000x256 .f32 0x00000000#32) (ix2 p q)
      = ∑ k : Fin 256, a (ix2 p k) * w (ix2 k q) := by
  refine (Ideal.matmul_constant_zero_apply dot_S2000x256_S256x256_S2000x256_1_0_0_1_n_n none a w (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun d => Fin.ext (by
    match d with
    | ⟨0, _⟩ => exact mm256_l0 _ _
    | ⟨1, _⟩ => exact (dot_S2000x256_S256x256_S2000x256_1_0_0_1_n_n.lhsIdx_val_of_single rfl _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun d => Fin.ext (by
    match d with
    | ⟨0, _⟩ => exact (dot_S2000x256_S256x256_S2000x256_1_0_0_1_n_n.rhsIdx_val_of_single rfl _ _).trans hk
    | ⟨1, _⟩ => exact mm256_r1 _ _)
  rw [el, er]

/-- The left operand's row coordinate is the output's row. -/
theorem mm64_l0 (i : S2000x64.Idx) (κ : dot_S2000x256_S256x64_S2000x64_1_0_0_1_n_n.contr.Idx) : (dot_S2000x256_S256x64_S2000x64_1_0_0_1_n_n.lhsIdx i κ 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
/-- The right operand's column coordinate is the output's column. -/
theorem mm64_r1 (i : S2000x64.Idx) (κ : dot_S2000x256_S256x64_S2000x64_1_0_0_1_n_n.contr.Idx) : (dot_S2000x256_S256x64_S2000x64_1_0_0_1_n_n.rhsIdx i κ 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl
/-- The [2000,256] × [256,64] block product into the zero accumulator, at entry `(p, q)`: the sum over the
    contracted axis of row `p` of the left block against column `q` of the right one. -/
theorem mm64_at (a : FVec Ideal S2000x256 .bf16) (w : FVec Ideal S256x64 .bf16) (p : Fin 2000) (q : Fin 64) :
    matmul dot_S2000x256_S256x64_S2000x64_1_0_0_1_n_n none a w (constant (F := Ideal) S2000x64 .f32 0x00000000#32) (ix2 p q)
      = ∑ k : Fin 256, a (ix2 p k) * w (ix2 k q) := by
  refine (Ideal.matmul_constant_zero_apply dot_S2000x256_S256x64_S2000x64_1_0_0_1_n_n none a w (ix2 p q)).trans ?_
  rw [← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have el : dot_S2000x256_S256x64_S2000x64_1_0_0_1_n_n.lhsIdx (ix2 p q) ((contrEquiv1 dot_S2000x256_S256x64_S2000x64_1_0_0_1_n_n 256 rfl rfl).symm k) = ix2 p k := funext fun d => Fin.ext (by
    match d with
    | ⟨0, _⟩ => exact mm64_l0 _ _
    | ⟨1, _⟩ => exact (dot_S2000x256_S256x64_S2000x64_1_0_0_1_n_n.lhsIdx_val_of_single rfl _ _).trans hk)
  have er : dot_S2000x256_S256x64_S2000x64_1_0_0_1_n_n.rhsIdx (ix2 p q) ((contrEquiv1 dot_S2000x256_S256x64_S2000x64_1_0_0_1_n_n 256 rfl rfl).symm k) = ix2 k q := funext fun d => Fin.ext (by
    match d with
    | ⟨0, _⟩ => exact (dot_S2000x256_S256x64_S2000x64_1_0_0_1_n_n.rhsIdx_val_of_single rfl _ _).trans hk
    | ⟨1, _⟩ => exact mm64_r1 _ _)
  rw [el, er]

/-- The 1×256 bias row broadcast down the 2000 rows, at entry `(p, q)`: the bias at column `q`. -/
theorem bias256_at (b : Vec Ideal S1x256 .f32) (p : Fin 2000) (q : Fin 256) :
    broadcastTo S2000x256 (shapeCast S1x256 b shapeCasts_S1x256_S1x256) broadcasts_S1x256_S2000x256 (ix2 p q) = b (ix2 (0 : Fin 1) q) := by
  rw [shapeCast_self]
  exact broadcastTo_apply b broadcasts_S1x256_S2000x256 (ix2 p q) (ix2 (0 : Fin 1) q) (fun d => match d with
    | ⟨0, _⟩ => by show (0 : Nat) = if (1 : Nat) = 1 then 0 else _; rw [if_pos rfl]
    | ⟨1, _⟩ => by show q.val = if (256 : Nat) = 1 then 0 else q.val; rw [if_neg (by decide)])

/-- The 1×64 bias row broadcast down the 2000 rows, at entry `(p, q)`: the bias at column `q`. -/
theorem bias64_at (b : Vec Ideal S1x64 .f32) (p : Fin 2000) (q : Fin 64) :
    broadcastTo S2000x64 (shapeCast S1x64 b shapeCasts_S1x64_S1x64) broadcasts_S1x64_S2000x64 (ix2 p q) = b (ix2 (0 : Fin 1) q) := by
  rw [shapeCast_self]
  exact broadcastTo_apply b broadcasts_S1x64_S2000x64 (ix2 p q) (ix2 (0 : Fin 1) q) (fun d => match d with
    | ⟨0, _⟩ => by show (0 : Nat) = if (1 : Nat) = 1 then 0 else _; rw [if_pos rfl]
    | ⟨1, _⟩ => by show q.val = if (64 : Nat) = 1 then 0 else q.val; rw [if_neg (by decide)])

/-- The hidden layer the last kernel forms, at entry `(p, k)` of the block: the specification's hidden-layer entry
    of the loaded blocks (both row operands pass through a reshape to their own shape and a narrowing to bf16, which
    change nothing at the ideal values). -/
theorem hidden_at (v0 v3 : Vec Ideal S2000x256 .f32) (v6 v8 : Vec Ideal S256x256 .f32) (v11 : Vec Ideal S1x256 .f32)
    (p : Fin 2000) (k : Fin 256) :
    maximumf (addf (addf
        (matmul dot_S2000x256_S256x256_S2000x256_1_0_0_1_n_n none (truncf .bf16 (shapeCast S2000x256 v0 shapeCasts_S2000x256_S2000x256) bitsLt_bf16_f32)
          (truncf .bf16 v6 bitsLt_bf16_f32) (constant (F := Ideal) S2000x256 .f32 0x00000000#32))
        (broadcastTo S2000x256 (shapeCast S1x256 v11 shapeCasts_S1x256_S1x256) broadcasts_S1x256_S2000x256))
        (matmul dot_S2000x256_S256x256_S2000x256_1_0_0_1_n_n none (truncf .bf16 (shapeCast S2000x256 v3 shapeCasts_S2000x256_S2000x256) bitsLt_bf16_f32)
          (truncf .bf16 v8 bitsLt_bf16_f32) (constant (F := Ideal) S2000x256 .f32 0x00000000#32)))
      (broadcast S2000x256 (Scalar.ofBits (F := Ideal) .f32 0x00000000#32)) (ix2 p k)
      = Cert.Sage.hiddenAt (M := 2000) (K := 256) (N := 256) v0 v3 v6 v8 (fun q => v11 (ix2 (0 : Fin 1) q)) p k := by
  unfold Cert.Sage.hiddenAt
  show max (matmul dot_S2000x256_S256x256_S2000x256_1_0_0_1_n_n none _ _ _ (ix2 p k) + broadcastTo S2000x256 _ _ (ix2 p k)
      + matmul dot_S2000x256_S256x256_S2000x256_1_0_0_1_n_n none _ _ _ (ix2 p k)) _ = _
  rw [mm256_at, mm256_at, bias256_at, shapeCast_self, shapeCast_self]
  rfl

/-- The last kernel's stored value at entry `(p, q)` of its 2000-row block: the output layer's entry over the hidden
    layer's entries of the loaded blocks. -/
theorem pay2_at (v0 v3 : Vec Ideal S2000x256 .f32) (v6 v8 : Vec Ideal S256x256 .f32) (v11 : Vec Ideal S1x256 .f32)
    (v20 : Vec Ideal S256x64 .f32) (v23 : Vec Ideal S1x64 .f32) (p : Fin 2000) (q : Fin 64) :
    k2_pay1 (F := Ideal) v0 v3 v6 v8 v11 v20 v23 (ix2 p q)
      = Cert.Sage.linearAt (M := 2000) (K := 256) (N := 64)
          (fun r k => Cert.Sage.hiddenAt (M := 2000) (K := 256) (N := 256) v0 v3 v6 v8 (fun q => v11 (ix2 (0 : Fin 1) q)) r k)
          v20 (fun q => v23 (ix2 (0 : Fin 1) q)) p q := by
  unfold k2_pay1 Cert.Sage.linearAt
  dsimp only
  show matmul dot_S2000x256_S256x64_S2000x64_1_0_0_1_n_n none _ _ _ (ix2 p q) + broadcastTo S2000x64 _ _ (ix2 p q) = _
  rw [mm64_at, bias64_at]
  refine congrArg (· + v23 (ix2 (0 : Fin 1) q)) (Finset.sum_congr rfl fun k _ => ?_)
  exact congrArg (· * v20 (ix2 k q)) (hidden_at v0 v3 v6 v8 v11 p k)

end Cert.KernelIdeal.EntryFinal

end
-- ==== Proof.SageRegion2.lean ====
/-
  What the last kernel (the third hidden layer fused with the output layer) leaves in its result array, as one
  function of the arrays the region finds on entry.

  The grid has 25 points; point `t` reads rows `2000·t … 2000·t + 1999` of the aggregated means and of the users'
  hidden features, the whole weight matrices and bias rows, and writes back rows `2000·t … 2000·t + 1999` of the
  result. Every written block is the output layer over the hidden layer of the blocks read, so it is the
  corresponding block of the same function of the whole arrays; the 25 blocks tile the 50000 rows (row `r` is in
  block `r / 2000`), hence the result array ends holding that function.
-/
import proofs.«134559_j11768210391489_1_alg».proof.Proof.Gen.KernelIdeal.Frame
import proofs.«134559_j11768210391489_1_alg».proof.Proof.SagePayFinal
import proofs.«134559_j11768210391489_1_alg».proof.Proof.SageCongr
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row operands and the result are at block `(t, 0)`, every weight
    matrix and bias row at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The hidden rows of whole arrays, entry by entry. -/
abbrev hid (mean xdst : S50000x256.Idx → EReal) (wl : S256x256.Idx → EReal) (b : S1x256.Idx → EReal)
    (wr : S256x256.Idx → EReal) : Fin 50000 → Fin 256 → EReal :=
  fun r k => Cert.Sage.hiddenAt (M := 50000) (K := 256) (N := 256) mean xdst wl wr (fun q => b (ix2 (0 : Fin 1) q)) r k

/-- The output layer over the hidden layer of whole arrays: entry `i` reads row `i 0` of the hidden features and
    column `i 1` of the output matrix and of its bias row. -/
abbrev arr (mean xdst : S50000x256.Idx → EReal) (wl : S256x256.Idx → EReal) (b : S1x256.Idx → EReal)
    (wr : S256x256.Idx → EReal) (wlin : S256x64.Idx → EReal) (blin : S1x64.Idx → EReal) : S50000x64.Idx → EReal :=
  fun i => Cert.Sage.linearAt (M := 50000) (K := 256) (N := 64) (hid mean xdst wl b wr) wlin
    (fun q => blin (ix2 (0 : Fin 1) q)) (i 0) (i 1)

/-- The hidden rows of a 2000-row block, entry by entry. -/
abbrev hidBlk (x0 x1 : Vec Ideal S2000x256 .f32) (x2 : Vec Ideal S256x256 .f32) (x3 : Vec Ideal S1x256 .f32)
    (x4 : Vec Ideal S256x256 .f32) : Fin 2000 → Fin 256 → EReal :=
  fun r k => Cert.Sage.hiddenAt (M := 2000) (K := 256) (N := 256) x0 x1 x2 x4 (fun q => x3 (ix2 (0 : Fin 1) q)) r k

/-- What the body leaves in the result's buffer is the output layer over the hidden layer of the loaded blocks. -/
theorem block_eq (x0 x1 : Vec Ideal S2000x256 .f32) (x2 : Vec Ideal S256x256 .f32) (x3 : Vec Ideal S1x256 .f32)
    (x4 : Vec Ideal S256x256 .f32) (x5 : Vec Ideal S256x64 .f32) (x6 : Vec Ideal S1x64 .f32) (j : S2000x64.Idx) :
    out2_7 (F := Ideal) x0 x1 x2 x3 x4 x5 x6 j
      = Cert.Sage.linearAt (M := 2000) (K := 256) (N := 64) (hidBlk x0 x1 x2 x3 x4) x5
          (fun q => x6 (ix2 (0 : Fin 1) q)) (j 0) (j 1) := by
  unfold out2_7
  rw [View.canon_unit_zero hz]
  simp only [View.ld_unit_zero (S := S2000x256) hz, View.ld_unit_zero (S := S256x256) hz, View.ld_unit_zero (S := S1x256) hz,
    View.ld_unit_zero (S := S256x64) hz, View.ld_unit_zero (S := S1x64) hz]
  obtain ⟨p, q, rfl⟩ : ∃ (p : Fin 2000) (q : Fin 64), j = ix2 p q := ⟨j 0, j 1, eq_ix2 j⟩
  exact Cert.KernelIdeal.EntryFinal.pay2_at x0 x1 x2 x4 x3 x5 x6 p q

/-- Row `p` of point `t`'s block of the means is row `2000·t + p` of the array. -/
theorem read_mean (c : Dev nD) (t : Fin cfg2.N) (p : Fin 2000) (r : Fin 50000) (k : Fin 256) (hr : r.val = t.val * 2000 + p.val) :
    (iblk2 V c 0 t : Vec Ideal S2000x256 .f32) (ix2 p k) = V c main_v57 (ix2 r k) := by
  obtain ⟨e0, e1, -⟩ := idx_facts t
  unfold iblk2
  rw [View.read_apply]
  show V c main_v57 _ = V c main_v57 _
  refine congrArg (V c main_v57) (funext fun a => Fin.ext ?_)
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- Row `p` of point `t`'s block of the users' hidden features is row `2000·t + p` of the array. -/
theorem read_x (c : Dev nD) (t : Fin cfg2.N) (p : Fin 2000) (r : Fin 50000) (k : Fin 256) (hr : r.val = t.val * 2000 + p.val) :
    (iblk2 V c 1 t : Vec Ideal S2000x256 .f32) (ix2 p k) = V c main_v39 (ix2 r k) := by
  obtain ⟨-, -, e0, e1, -⟩ := idx_facts t
  unfold iblk2
  rw [View.read_apply]
  show V c main_v39 _ = V c main_v39 _
  refine congrArg (V c main_v39) (funext fun a => Fin.ext ?_)
  match a with
  | ⟨0, _⟩ => show win2_1.index t (0 : Fin 2) * 2000 + 1 * p.val = r.val; rw [e0, hr]; omega
  | ⟨1, _⟩ => show win2_1.index t (1 : Fin 2) * 256 + 1 * k.val = k.val; rw [e1]; omega

/-- The block of the first weight matrix is the matrix. -/
theorem read_wl (c : Dev nD) (t : Fin cfg2.N) (k : Fin 256) (q q' : Fin 256) (hq : q'.val = q.val) :
    (iblk2 V c 2 t : Vec Ideal S256x256 .f32) (ix2 k q) = V c main_arg12 (ix2 k q') := by
  obtain ⟨-, -, -, -, e0, e1, -⟩ := idx_facts t
  unfold iblk2
  rw [View.read_apply]
  show V c main_arg12 _ = V c main_arg12 _
  refine congrArg (V c main_arg12) (funext fun a => Fin.ext ?_)
  match a with
  | ⟨0, _⟩ => show win2_2.index t (0 : Fin 2) * 256 + 1 * k.val = k.val; rw [e0]; omega
  | ⟨1, _⟩ => show win2_2.index t (1 : Fin 2) * 256 + 1 * q.val = q'.val; rw [e1, hq]; omega

/-- The block of the hidden layer's bias row is the row. -/
theorem read_b (c : Dev nD) (t : Fin cfg2.N) (q q' : Fin 256) (hq : q'.val = q.val) :
    (iblk2 V c 3 t : Vec Ideal S1x256 .f32) (ix2 (0 : Fin 1) q) = V c main_v58 (ix2 (0 : Fin 1) q') := by
  obtain ⟨-, -, -, -, -, -, e0, e1, -⟩ := idx_facts t
  unfold iblk2
  rw [View.read_apply]
  show V c main_v58 _ = V c main_v58 _
  refine congrArg (V c main_v58) (funext fun a => Fin.ext ?_)
  match a with
  | ⟨0, _⟩ => show win2_3.index t (0 : Fin 2) * 1 + 1 * 0 = 0; rw [e0]
  | ⟨1, _⟩ => show win2_3.index t (1 : Fin 2) * 256 + 1 * q.val = q'.val; rw [e1, hq]; omega

/-- The block of the second weight matrix is the matrix. -/
theorem read_wr (c : Dev nD) (t : Fin cfg2.N) (k : Fin 256) (q q' : Fin 256) (hq : q'.val = q.val) :
    (iblk2 V c 4 t : Vec Ideal S256x256 .f32) (ix2 k q) = V c main_arg14 (ix2 k q') := by
  obtain ⟨-, -, -, -, -, -, -, -, e0, e1, -⟩ := idx_facts t
  unfold iblk2
  rw [View.read_apply]
  show V c main_arg14 _ = V c main_arg14 _
  refine congrArg (V c main_arg14) (funext fun a => Fin.ext ?_)
  match a with
  | ⟨0, _⟩ => show win2_4.index t (0 : Fin 2) * 256 + 1 * k.val = k.val; rw [e0]; omega
  | ⟨1, _⟩ => show win2_4.index t (1 : Fin 2) * 256 + 1 * q.val = q'.val; rw [e1, hq]; omega

/-- The block of the output matrix is the matrix. -/
theorem read_wlin (c : Dev nD) (t : Fin cfg2.N) (k : Fin 256) (q q' : Fin 64) (hq : q'.val = q.val) :
    (iblk2 V c 5 t : Vec Ideal S256x64 .f32) (ix2 k q) = V c main_arg15 (ix2 k q') := by
  obtain ⟨-, -, -, -, -, -, -, -, -, -, e0, e1, -⟩ := idx_facts t
  unfold iblk2
  rw [View.read_apply]
  show V c main_arg15 _ = V c main_arg15 _
  refine congrArg (V c main_arg15) (funext fun a => Fin.ext ?_)
  match a with
  | ⟨0, _⟩ => show win2_5.index t (0 : Fin 2) * 256 + 1 * k.val = k.val; rw [e0]; omega
  | ⟨1, _⟩ => show win2_5.index t (1 : Fin 2) * 64 + 1 * q.val = q'.val; rw [e1, hq]; omega

/-- The block of the output layer's bias row is the row. -/
theorem read_blin (c : Dev nD) (t : Fin cfg2.N) (q q' : Fin 64) (hq : q'.val = q.val) :
    (iblk2 V c 6 t : Vec Ideal S1x64 .f32) (ix2 (0 : Fin 1) q) = V c main_v59 (ix2 (0 : Fin 1) q') := by
  obtain ⟨-, -, -, -, -, -, -, -, -, -, -, -, e0, e1, -⟩ := idx_facts t
  unfold iblk2
  rw [View.read_apply]
  show V c main_v59 _ = V c main_v59 _
  refine congrArg (V c main_v59) (funext fun a => Fin.ext ?_)
  match a with
  | ⟨0, _⟩ => show win2_6.index t (0 : Fin 2) * 1 + 1 * 0 = 0; rw [e0]
  | ⟨1, _⟩ => show win2_6.index t (1 : Fin 2) * 64 + 1 * q.val = q'.val; rw [e1, hq]; omega

/-- What point `t` writes back is block `t` of the output layer over the hidden layer of the arrays as the region
    finds them. -/
theorem flushed_eq (c : Dev nD) (t : Fin cfg2.N) :
    (dat2 V c).flushed 7 t = ((cfg2.win 7).blk t).view.read (Elt Ideal)
      (arr (V c main_v57) (V c main_v39) (V c main_arg12) (V c main_v58) (V c main_arg14) (V c main_arg15) (V c main_v59)) := by
  show (cfg2.win 7).cut (grid2.coords t) ((dat2 V c).after 7 t) = _
  rw [after2_7]
  obtain ⟨-, -, -, -, -, -, -, -, -, -, -, -, -, -, e0, e1⟩ := idx_facts t
  funext j
  have hr : (((((cfg2.win 7).blk t).view.emb j) 0)).val = t.val * 2000 + (j 0).val := by
    show win2_7.index t (0 : Fin 2) * 2000 + 1 * (j 0).val = _; rw [e0]; omega
  have hq : (((((cfg2.win 7).blk t).view.emb j) 1)).val = (j 1).val := by
    show win2_7.index t (1 : Fin 2) * 64 + 1 * (j 1).val = _; rw [e1]; omega
  refine (block_eq (iblk2 V c 0 t) (iblk2 V c 1 t) (iblk2 V c 2 t) (iblk2 V c 3 t) (iblk2 V c 4 t) (iblk2 V c 5 t) (iblk2 V c 6 t) j).trans ?_
  rw [View.read_apply]
  exact Cert.Sage.linearAt_ext (M := 2000) (M' := 50000) (K := 256) (N := 64) (N' := 64)
    (hidBlk (iblk2 V c 0 t) (iblk2 V c 1 t) (iblk2 V c 2 t) (iblk2 V c 3 t) (iblk2 V c 4 t))
    (hid (V c main_v57) (V c main_v39) (V c main_arg12) (V c main_v58) (V c main_arg14))
    (iblk2 V c 5 t : Vec Ideal S256x64 .f32) (V c main_arg15)
    (fun q => (iblk2 V c 6 t : Vec Ideal S1x64 .f32) (ix2 (0 : Fin 1) q)) (fun q => V c main_v59 (ix2 (0 : Fin 1) q))
    (j 0) ((((cfg2.win 7).blk t).view.emb j) 0) (j 1) ((((cfg2.win 7).blk t).view.emb j) 1)
    (fun k => Cert.Sage.hiddenAt_ext (M := 2000) (M' := 50000) (K := 256) (N := 256) (N' := 256)
      (iblk2 V c 0 t : Vec Ideal S2000x256 .f32) (iblk2 V c 1 t : Vec Ideal S2000x256 .f32) (V c main_v57) (V c main_v39)
      (iblk2 V c 2 t : Vec Ideal S256x256 .f32) (iblk2 V c 4 t : Vec Ideal S256x256 .f32) (V c main_arg12) (V c main_arg14)
      (fun q => (iblk2 V c 3 t : Vec Ideal S1x256 .f32) (ix2 (0 : Fin 1) q)) (fun q => V c main_v58 (ix2 (0 : Fin 1) q))
      (j 0) ((((cfg2.win 7).blk t).view.emb j) 0) k k
      (fun k' => read_mean V c t (j 0) ((((cfg2.win 7).blk t).view.emb j) 0) k' hr) (fun k' => read_x V c t (j 0) ((((cfg2.win 7).blk t).view.emb j) 0) k' hr)
      (fun k' => read_wl V c t k' k k rfl) (fun k' => read_wr V c t k' k k rfl) (read_b V c t k k rfl))
    (fun k => read_wlin V c t k (j 1) ((((cfg2.win 7).blk t).view.emb j) 1) hq)
    (read_blin V c t (j 1) ((((cfg2.win 7).blk t).view.emb j) 1) hq)

/-- An index of the result array is in point `t`'s block iff each coordinate is in the block's range on its axis. -/
theorem mem_blk (t : Fin cfg2.N) (i : S50000x64.Idx) :
    i ∈ ((cfg2.win 7).blk t).view.set ↔ ∀ a : Fin 2, win2_7.index t a * S2000x64.size a ≤ (i a).val ∧ (i a).val < win2_7.index t a * S2000x64.size a + S2000x64.size a := by
  show i ∈ ((View.whole main_v60).slice (win2_7.rect t)).set ↔ _
  rw [View.set_slice_whole, Rect.mem_set_unit]
  exact Iff.rfl

/-- The result array after the region: the output layer over the hidden layer of the arrays as the region finds them. -/
theorem final (c : Dev nD) : (dat2 V c).arrAt 7 cfg2.N
    = arr (V c main_v57) (V c main_v39) (V c main_arg12) (V c main_v58) (V c main_arg14) (V c main_arg15) (V c main_v59) :=
  (dat2 V c).arrAt_eq_of_cover 7 _ (fun t _ => flushed_eq V c t) fun i => by
    have hi0 : (i 0).val < 50000 := (i 0).isLt
    have hi1 : (i 1).val < 64 := (i 1).isLt
    have hN : cfg2.N = 25 := N_2
    refine ⟨⟨(i 0).val / 2000, by rw [hN]; omega⟩, flush2_7 _, ?_⟩
    rw [mem_blk]
    obtain ⟨-, -, -, -, -, -, -, -, -, -, -, -, -, -, e0, e1⟩ := idx_facts ⟨(i 0).val / 2000, by rw [hN]; omega⟩
    intro a
    match a with
    | ⟨0, _⟩ =>
      show win2_7.index _ (0 : Fin 2) * 2000 ≤ (i 0).val ∧ (i 0).val < win2_7.index _ (0 : Fin 2) * 2000 + 2000
      rw [e0]; show (i 0).val / 2000 * 2000 ≤ (i 0).val ∧ (i 0).val < (i 0).val / 2000 * 2000 + 2000; omega
    | ⟨1, _⟩ =>
      show win2_7.index _ (1 : Fin 2) * 64 ≤ (i 1).val ∧ (i 1).val < win2_7.index _ (1 : Fin 2) * 64 + 64
      rw [e1]; omega

end Cert.KernelIdeal.Layer2

end
-- ==== Proof.SageRef.lean ====
/-
  The reference program's three layers, entry by entry.

  Each hidden layer of the reference writes, at row `p` and column `q`, the clamp at zero of the aggregated
  mean's row against one weight, plus the bias at `q`, plus the destination features' row against a second
  weight; the output layer writes the last hidden row against the output weight plus the output bias. These are
  the entries `Cert.Sage.hiddenAt` and `Cert.Sage.linearAt` name. The aggregated means stay opaque terms.
-/
import proofs.«134559_j11768210391489_1_alg».proof.Proof.Gen.ReferenceIdeal.Read
import proofs.«134559_j11768210391489_1_alg».proof.Proof.SageSpec
import Idealize.ShloMosaic.Lib.ValueIdx
import Idealize.ShloMosaic.Lib.Pipeline.Value
import Idealize.ShloMosaic.PureOps.Ideal.Laws

noncomputable section
open scoped BigOperators
open Idealize.ShloMosaic Idealize.ShloMosaic.ValueIdx
namespace Cert.ReferenceIdeal.Layers
open Cert.ReferenceIdeal Cert.ReferenceIdeal.Read

/-- Entry `(p, q)` of the first hidden layer: the mean's row `p` against `x6`, the bias `x7` at `q`, the
    features' row `p` against `x8`, clamped at zero. -/
theorem layer1_at (x0 : (⟨S100000x128, .f32⟩ : BufTy).Contents (Elt Ideal)) (x2 x3 : (⟨S800000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (p : Fin 100000) (q : Fin 256) :
    val_main_v24 (F := Ideal) x0 x2 x3 x6 x7 x8 (ix2 p q)
      = Cert.Sage.hiddenAt (M := 100000) (K := 128) (N := 256) (val_main_v17 (F := Ideal) x0 x2 x3) x0 x6 x8 (fun q => x7 (ix1 q)) p q := by
  unfold Cert.Sage.hiddenAt
  rw [val_main_v24_apply, val_main_v23_apply, val_main_v21_apply, val_main_v18_apply, val_main_v22_apply,
    val_main_v20_apply, val_main_v19_apply, val_main_call1_v0_apply, val_main_call1_cst_apply]
  -- the index functions of the two contractions and of the bias's two broadcasts, at the index `(p, q)`
  have hl18 : ∀ k : Fin 128, lidx_main_v18 (ix2 p q) k = ix2 p k := fun k =>
    funext fun a => Fin.ext (by match a with | ⟨0, _⟩ => rfl | ⟨1, _⟩ => rfl)
  have hr18 : ∀ k : Fin 128, ridx_main_v18 (ix2 p q) k = ix2 k q := fun k =>
    funext fun a => Fin.ext (by match a with | ⟨0, _⟩ => rfl | ⟨1, _⟩ => rfl)
  have hl22 : ∀ k : Fin 128, lidx_main_v22 (ix2 p q) k = ix2 p k := fun k =>
    funext fun a => Fin.ext (by match a with | ⟨0, _⟩ => rfl | ⟨1, _⟩ => rfl)
  have hr22 : ∀ k : Fin 128, ridx_main_v22 (ix2 p q) k = ix2 k q := fun k =>
    funext fun a => Fin.ext (by match a with | ⟨0, _⟩ => rfl | ⟨1, _⟩ => rfl)
  have hb : idx_main_v19 (idx_main_v20 (ix2 p q)) = ix1 q :=
    funext fun a => Fin.ext (by match a with | ⟨0, _⟩ => rfl)
  simp only [hl18, hr18, hl22, hr22, hb]
  rfl

/-- Entry `(p, q)` of the second hidden layer: the mean's row `p` against `x9`, the bias `x10` at `q`, the
    features' row `p` against `x11`, clamped at zero. -/
theorem layer2_at (x0 : (⟨S100000x128, .f32⟩ : BufTy).Contents (Elt Ideal)) (x1 : (⟨S50000x128, .f32⟩ : BufTy).Contents (Elt Ideal)) (x4 x5 : (⟨S800000, .i32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (p : Fin 50000) (q : Fin 256) :
    val_main_v49 (F := Ideal) x0 x1 x4 x5 x9 x10 x11 (ix2 p q)
      = Cert.Sage.hiddenAt (M := 50000) (K := 128) (N := 256) (val_main_v42 (F := Ideal) x0 x4 x5) x1 x9 x11 (fun q => x10 (ix1 q)) p q := by
  unfold Cert.Sage.hiddenAt
  rw [val_main_v49_apply, val_main_v48_apply, val_main_v46_apply, val_main_v43_apply, val_main_v47_apply,
    val_main_v45_apply, val_main_v44_apply, val_main_call3_v0_apply, val_main_call3_cst_apply]
  have hl43 : ∀ k : Fin 128, lidx_main_v43 (ix2 p q) k = ix2 p k := fun k =>
    funext fun a => Fin.ext (by match a with | ⟨0, _⟩ => rfl | ⟨1, _⟩ => rfl)
  have hr43 : ∀ k : Fin 128, ridx_main_v43 (ix2 p q) k = ix2 k q := fun k =>
    funext fun a => Fin.ext (by match a with | ⟨0, _⟩ => rfl | ⟨1, _⟩ => rfl)
  have hl47 : ∀ k : Fin 128, lidx_main_v47 (ix2 p q) k = ix2 p k := fun k =>
    funext fun a => Fin.ext (by match a with | ⟨0, _⟩ => rfl | ⟨1, _⟩ => rfl)
  have hr47 : ∀ k : Fin 128, ridx_main_v47 (ix2 p q) k = ix2 k q := fun k =>
    funext fun a => Fin.ext (by match a with | ⟨0, _⟩ => rfl | ⟨1, _⟩ => rfl)
  have hb : idx_main_v44 (idx_main_v45 (ix2 p q)) = ix1 q :=
    funext fun a => Fin.ext (by match a with | ⟨0, _⟩ => rfl)
  simp only [hl43, hr43, hl47, hr47, hb]
  rfl

/-- Entry `(p, q)` of the third hidden layer: the mean's row `p` against `x12`, the bias `x13` at `q`, the
    second layer's row `p` against `x14`, clamped at zero. -/
theorem layer3_at (x0 : (⟨S100000x128, .f32⟩ : BufTy).Contents (Elt Ideal)) (x1 : (⟨S50000x128, .f32⟩ : BufTy).Contents (Elt Ideal)) (x2 x3 x4 x5 : (⟨S800000, .i32⟩ : BufTy).Contents (Elt Ideal)) (x6 : (⟨S128x256, .f32⟩ : BufTy).Contents (Elt Ideal)) (x7 : (⟨S256, .f32⟩ : BufTy).Contents (Elt Ideal)) (x8 x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (p : Fin 50000) (q : Fin 256) :
    val_main_v74 (F := Ideal) x0 x1 x2 x3 x4 x5 x6 x7 x8 x9 x10 x11 x12 x13 x14 (ix2 p q)
      = Cert.Sage.hiddenAt (M := 50000) (K := 256) (N := 256) (val_main_v67 (F := Ideal) x0 x2 x3 x4 x5 x6 x7 x8) (val_main_v49 (F := Ideal) x0 x1 x4 x5 x9 x10 x11) x12 x14 (fun q => x13 (ix1 q)) p q := by
  unfold Cert.Sage.hiddenAt
  rw [val_main_v74_apply, val_main_v73_apply, val_main_v71_apply, val_main_v68_apply, val_main_v72_apply,
    val_main_v70_apply, val_main_v69_apply, val_main_call5_v0_apply, val_main_call5_cst_apply]
  have hl68 : ∀ k : Fin 256, lidx_main_v68 (ix2 p q) k = ix2 p k := fun k =>
    funext fun a => Fin.ext (by match a with | ⟨0, _⟩ => rfl | ⟨1, _⟩ => rfl)
  have hr68 : ∀ k : Fin 256, ridx_main_v68 (ix2 p q) k = ix2 k q := fun k =>
    funext fun a => Fin.ext (by match a with | ⟨0, _⟩ => rfl | ⟨1, _⟩ => rfl)
  have hl72 : ∀ k : Fin 256, lidx_main_v72 (ix2 p q) k = ix2 p k := fun k =>
    funext fun a => Fin.ext (by match a with | ⟨0, _⟩ => rfl | ⟨1, _⟩ => rfl)
  have hr72 : ∀ k : Fin 256, ridx_main_v72 (ix2 p q) k = ix2 k q := fun k =>
    funext fun a => Fin.ext (by match a with | ⟨0, _⟩ => rfl | ⟨1, _⟩ => rfl)
  have hb : idx_main_v69 (idx_main_v70 (ix2 p q)) = ix1 q :=
    funext fun a => Fin.ext (by match a with | ⟨0, _⟩ => rfl)
  simp only [hl68, hr68, hl72, hr72, hb]
  rfl

/-- Entry `(p, q)` of the output: the third hidden layer's row `p`, entry by entry, against `x15`, plus the
    bias `x16` at `q`. -/
theorem out_at (x0 : (⟨S100000x128, .f32⟩ : BufTy).Contents (Elt Ideal)) (x1 : (⟨S50000x128, .f32⟩ : BufTy).Contents (Elt Ideal)) (x2 x3 x4 x5 : (⟨S800000, .i32⟩ : BufTy).Contents (Elt Ideal)) (x6 : (⟨S128x256, .f32⟩ : BufTy).Contents (Elt Ideal)) (x7 : (⟨S256, .f32⟩ : BufTy).Contents (Elt Ideal)) (x8 x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x64, .f32⟩ : BufTy).Contents (Elt Ideal)) (x16 : (⟨S64, .f32⟩ : BufTy).Contents (Elt Ideal)) (p : Fin 50000) (q : Fin 64) :
    val_main_v78 (F := Ideal) x0 x1 x2 x3 x4 x5 x6 x7 x8 x9 x10 x11 x12 x13 x14 x15 x16 (ix2 p q)
      = Cert.Sage.linearAt (M := 50000) (K := 256) (N := 64)
          (fun r k => Cert.Sage.hiddenAt (M := 50000) (K := 256) (N := 256) (val_main_v67 (F := Ideal) x0 x2 x3 x4 x5 x6 x7 x8) (val_main_v49 (F := Ideal) x0 x1 x4 x5 x9 x10 x11) x12 x14 (fun q => x13 (ix1 q)) r k)
          x15 (fun q => x16 (ix1 q)) p q := by
  unfold Cert.Sage.linearAt
  rw [val_main_v78_apply, val_main_v75_apply, val_main_v77_apply, val_main_v76_apply]
  have hl75 : ∀ k : Fin 256, lidx_main_v75 (ix2 p q) k = ix2 p k := fun k =>
    funext fun a => Fin.ext (by match a with | ⟨0, _⟩ => rfl | ⟨1, _⟩ => rfl)
  have hr75 : ∀ k : Fin 256, ridx_main_v75 (ix2 p q) k = ix2 k q := fun k =>
    funext fun a => Fin.ext (by match a with | ⟨0, _⟩ => rfl | ⟨1, _⟩ => rfl)
  have hb : idx_main_v76 (idx_main_v77 (ix2 p q)) = ix1 q :=
    funext fun a => Fin.ext (by match a with | ⟨0, _⟩ => rfl)
  simp only [hl75, hr75, hb]
  -- each summand's left factor is an entry of the third hidden layer
  have hs : (∑ k : Fin 256, val_main_v74 (F := Ideal) x0 x1 x2 x3 x4 x5 x6 x7 x8 x9 x10 x11 x12 x13 x14 (ix2 p k) * x15 (ix2 k q))
      = ∑ k : Fin 256, Cert.Sage.hiddenAt (M := 50000) (K := 256) (N := 256) (val_main_v67 (F := Ideal) x0 x2 x3 x4 x5 x6 x7 x8) (val_main_v49 (F := Ideal) x0 x1 x4 x5 x9 x10 x11) x12 x14 (fun q => x13 (ix1 q)) p k * x15 (ix2 k q) :=
    Finset.sum_congr rfl fun k _ => by rw [layer3_at]
  rw [hs]
  rfl

end Cert.ReferenceIdeal.Layers
end
-- ==== Proof.SageValue.lean ====
/-
  The kernel program's result is the reference's, as extended reals.

  Walking the kernel program's @main from the launch memory: the first stretch of host operations leaves the first
  aggregated means — the SAME gather, scatter-add, count and quotient the reference applies, applied to the same
  arguments, so the same array, whatever a gather or a scatter computes; the first region turns them into the first
  hidden layer, entry by entry the reference's first hidden layer; the second stretch and region do the same for
  the users; the third stretch applies the same aggregation to the first hidden layer — equal arrays going in, the
  same operations, equal means coming out — and the last region leaves the output layer over the third hidden
  layer, entry by entry the reference's result.
-/
import proofs.«134559_j11768210391489_1_alg».proof.Proof.SageBoundary
import proofs.«134559_j11768210391489_1_alg».proof.Proof.SageRegion0
import proofs.«134559_j11768210391489_1_alg».proof.Proof.SageRegion1
import proofs.«134559_j11768210391489_1_alg».proof.Proof.SageRegion2
import proofs.«134559_j11768210391489_1_alg».proof.Proof.SageRef
import proofs.«134559_j11768210391489_1_alg».proof.Proof.SageCongr

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Through

open Cert.KernelIdeal Cert.KernelIdeal.Gen Cert.KernelIdeal.Boundary

variable (m : (ℓ : Loc nD τ sig) → Buf (Elt Ideal) ℓ) (ρ : Dev nD → PrngReg)

/-! ## The argument arrays as launched -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)
abbrev a14 (c : Dev nD) := m ((c : Thread nD τ).loc main_arg14)
abbrev a15 (c : Dev nD) := m ((c : Thread nD τ).loc main_arg15)
abbrev a16 (c : Dev nD) := m ((c : Thread nD τ).loc main_arg16)

/-! ## The first layer -/

/-- The first aggregated means: the reference's, the same host operations of the same arguments. -/
theorem mean1 (c : Dev nD) : W3 m ρ c (Proc.devRef .tc main_v17) = Cert.ReferenceIdeal.Read.val_main_v17 (F := Ideal) (a0 m c) (a2 m c) (a3 m c) := by
  show StableHlo.after hostOps0_2 (StableHlo.after hostOps0_1 (StableHlo.after hostOps0 (W0 m ρ c))) (Proc.devRef .tc main_v17) = _
  after_results_simp
  unfold Cert.ReferenceIdeal.Read.val_main_v17
  -- the quotient's numerator (the gathered rows added into their destination rows) and denominator (the counts,
  -- clamped below at one and spread along the rows) are compared separately; in the denominator the values of the
  -- clamp's inlined operations are carried through identity conversions, removed where they stand
  refine congrArg₂ Host.divf ?num ?den
  case num => rfl
  case den =>
    refine congrArg (broadcastInDim _ _ _) (congrArg (broadcastInDim _ _ _) ?_)
    show maximumf _ _ = maximumf _ _
    refine congrArg₂ maximumf ?one ?cnt
    case one => rfl
    case cnt =>
      show Host.scatterAdd _ _ _ _ = Host.scatterAdd _ _ _ _
      rfl

/-- The first region's result array is the reference's first hidden layer. -/
theorem layer1 (c : Dev nD) : W4 m ρ c (Proc.devRef .tc main_v19)
    = Cert.ReferenceIdeal.Read.val_main_v24 (F := Ideal) (a0 m c) (a2 m c) (a3 m c) (a6 m c) (a7 m c) (a8 m c) := by
  refine (W4_arr m ρ c 5).trans ((Layer0.final (V3 m ρ) c).trans (funext fun (i : S100000x256.Idx) => ?_))
  obtain ⟨p, q, rfl⟩ : ∃ (p : Fin 100000) (q : Fin 256), i = ix2 p q := ⟨i 0, i 1, eq_ix2 i⟩
  refine Eq.trans ?_ (Cert.ReferenceIdeal.Layers.layer1_at (a0 m c) (a2 m c) (a3 m c) (a6 m c) (a7 m c) (a8 m c) p q).symm
  exact Cert.Sage.hiddenAt_ext (M := 100000) (M' := 100000) (K := 128) (N := 256) (N' := 256)
    (V3 m ρ c main_v17) (V3 m ρ c main_arg0) (Cert.ReferenceIdeal.Read.val_main_v17 (F := Ideal) (a0 m c) (a2 m c) (a3 m c)) (a0 m c)
    (V3 m ρ c main_arg6) (V3 m ρ c main_arg8) (a6 m c) (a8 m c)
    (fun q => V3 m ρ c main_v18 (ix2 (0 : Fin 1) q)) (fun q => a7 m c (ix1 q))
    p p q q
    (fun k => congrFun (mean1 m ρ c) (ix2 p k)) (fun k => congrFun (W3_arg0 m ρ c) (ix2 p k))
    (fun k => congrFun (W3_arg6 m ρ c) (ix2 k q)) (fun k => congrFun (W3_arg8 m ρ c) (ix2 k q))
    (W3_v18_at m ρ c q)

/-! ## The second layer -/

/-- The second aggregated means: the reference's. -/
theorem mean2 (c : Dev nD) : W7 m ρ c (Proc.devRef .tc main_v37) = Cert.ReferenceIdeal.Read.val_main_v42 (F := Ideal) (a0 m c) (a4 m c) (a5 m c) := by
  show StableHlo.after hostOps1_2 (StableHlo.after hostOps1_1 (StableHlo.after hostOps1 (W4 m ρ c))) (Proc.devRef .tc main_v37) = _
  after_results_simp
  rw [W4_arg0 m ρ c, W4_arg4 m ρ c, W4_arg5 m ρ c]
  unfold Cert.ReferenceIdeal.Read.val_main_v42
  -- the quotient's numerator (the gathered rows added into their destination rows) and denominator (the counts,
  -- clamped below at one and spread along the rows) are compared separately; in the denominator the values of the
  -- clamp's inlined operations are carried through identity conversions, removed where they stand
  refine congrArg₂ Host.divf ?num ?den
  case num => rfl
  case den =>
    refine congrArg (broadcastInDim _ _ _) (congrArg (broadcastInDim _ _ _) ?_)
    show maximumf _ _ = maximumf _ _
    refine congrArg₂ maximumf ?one ?cnt
    case one => rfl
    case cnt =>
      show Host.scatterAdd _ _ _ _ = Host.scatterAdd _ _ _ _
      rfl

/-- The second region's result array is the reference's second hidden layer. -/
theorem layer2 (c : Dev nD) : W8 m ρ c (Proc.devRef .tc main_v39)
    = Cert.ReferenceIdeal.Read.val_main_v49 (F := Ideal) (a0 m c) (a1 m c) (a4 m c) (a5 m c) (a9 m c) (a10 m c) (a11 m c) := by
  refine (W8_arr m ρ c 5).trans ((Layer1.final (V7 m ρ) c).trans (funext fun (i : S50000x256.Idx) => ?_))
  obtain ⟨p, q, rfl⟩ : ∃ (p : Fin 50000) (q : Fin 256), i = ix2 p q := ⟨i 0, i 1, eq_ix2 i⟩
  refine Eq.trans ?_ (Cert.ReferenceIdeal.Layers.layer2_at (a0 m c) (a1 m c) (a4 m c) (a5 m c) (a9 m c) (a10 m c) (a11 m c) p q).symm
  exact Cert.Sage.hiddenAt_ext (M := 50000) (M' := 50000) (K := 128) (N := 256) (N' := 256)
    (V7 m ρ c main_v37) (V7 m ρ c main_arg1) (Cert.ReferenceIdeal.Read.val_main_v42 (F := Ideal) (a0 m c) (a4 m c) (a5 m c)) (a1 m c)
    (V7 m ρ c main_arg9) (V7 m ρ c main_arg11) (a9 m c) (a11 m c)
    (fun q => V7 m ρ c main_v38 (ix2 (0 : Fin 1) q)) (fun q => a10 m c (ix1 q))
    p p q q
    (fun k => congrFun (mean2 m ρ c) (ix2 p k)) (fun k => congrFun (W7_arg1 m ρ c) (ix2 p k))
    (fun k => congrFun (W7_arg9 m ρ c) (ix2 k q)) (fun k => congrFun (W7_arg11 m ρ c) (ix2 k q))
    (W7_v38_at m ρ c q)

/-! ## The third layer and the output -/

/-- The first hidden layer is still in its buffer when the third stretch of host operations reads it: the second
    stretch and the second region write other buffers. -/
theorem layer1_kept (c : Dev nD) : W8 m ρ c (Proc.devRef .tc main_v19)
    = Cert.ReferenceIdeal.Read.val_main_v24 (F := Ideal) (a0 m c) (a2 m c) (a3 m c) (a6 m c) (a7 m c) (a8 m c) := by
  refine (W8_of_ne m ρ c main_v19 (by decide)).trans ?_
  show StableHlo.after hostOps1_2 (StableHlo.after hostOps1_1 (StableHlo.after hostOps1 (W4 m ρ c))) (Proc.devRef .tc main_v19) = _
  after_results
  exact layer1 m ρ c

/-- The third aggregated means: the same host operations as the reference's, applied to equal arrays. -/
theorem mean3 (c : Dev nD) : W11 m ρ c (Proc.devRef .tc main_v57)
    = Cert.ReferenceIdeal.Read.val_main_v67 (F := Ideal) (a0 m c) (a2 m c) (a3 m c) (a4 m c) (a5 m c) (a6 m c) (a7 m c) (a8 m c) := by
  show StableHlo.after hostOps2_2 (StableHlo.after hostOps2_1 (StableHlo.after hostOps2 (W8 m ρ c))) (Proc.devRef .tc main_v57) = _
  after_results_simp
  rw [layer1_kept m ρ c, W8_arg4 m ρ c, W8_arg5 m ρ c]
  unfold Cert.ReferenceIdeal.Read.val_main_v67
  -- the quotient's numerator (the gathered rows added into their destination rows) and denominator (the counts,
  -- clamped below at one and spread along the rows) are compared separately; in the denominator the values of the
  -- clamp's inlined operations are carried through identity conversions, removed where they stand
  refine congrArg₂ Host.divf ?num ?den
  case num => rfl
  case den =>
    refine congrArg (broadcastInDim _ _ _) (congrArg (broadcastInDim _ _ _) ?_)
    show maximumf _ _ = maximumf _ _
    refine congrArg₂ maximumf ?one ?cnt
    case one => rfl
    case cnt =>
      show Host.scatterAdd _ _ _ _ = Host.scatterAdd _ _ _ _
      rfl

/-- The second hidden layer is still in its buffer when the third region reads it. -/
theorem layer2_kept (c : Dev nD) : W11 m ρ c (Proc.devRef .tc main_v39)
    = Cert.ReferenceIdeal.Read.val_main_v49 (F := Ideal) (a0 m c) (a1 m c) (a4 m c) (a5 m c) (a9 m c) (a10 m c) (a11 m c) := by
  show StableHlo.after hostOps2_2 (StableHlo.after hostOps2_1 (StableHlo.after hostOps2 (W8 m ρ c))) (Proc.devRef .tc main_v39) = _
  after_results
  exact layer2 m ρ c

/-- THE RESULT: after the last region the result buffer holds the reference's result stage of the launch arguments. -/
theorem result (c : Dev nD) : W12 m ρ c (Proc.devRef .tc main_v60)
    = Cert.ReferenceIdeal.Read.val_main_v78 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  refine (W12_arr m ρ c 7).trans ((Layer2.final (V11 m ρ) c).trans (funext fun (i : S50000x64.Idx) => ?_))
  obtain ⟨p, q, rfl⟩ : ∃ (p : Fin 50000) (q : Fin 64), i = ix2 p q := ⟨i 0, i 1, eq_ix2 i⟩
  refine Eq.trans ?_ (Cert.ReferenceIdeal.Layers.out_at (a0 m c) (a1 m c) (a2 m c) (a3 m c) (a4 m c) (a5 m c) (a6 m c) (a7 m c) (a8 m c) (a9 m c) (a10 m c) (a11 m c) (a12 m c) (a13 m c) (a14 m c) (a15 m c) (a16 m c) p q).symm
  exact Cert.Sage.linearAt_ext (M := 50000) (M' := 50000) (K := 256) (N := 64) (N' := 64)
    (Layer2.hid (V11 m ρ c main_v57) (V11 m ρ c main_v39) (V11 m ρ c main_arg12) (V11 m ρ c main_v58) (V11 m ρ c main_arg14))
    (fun r k => Cert.Sage.hiddenAt (M := 50000) (K := 256) (N := 256) (Cert.ReferenceIdeal.Read.val_main_v67 (F := Ideal) (a0 m c) (a2 m c) (a3 m c) (a4 m c) (a5 m c) (a6 m c) (a7 m c) (a8 m c))
      (Cert.ReferenceIdeal.Read.val_main_v49 (F := Ideal) (a0 m c) (a1 m c) (a4 m c) (a5 m c) (a9 m c) (a10 m c) (a11 m c)) (a12 m c) (a14 m c) (fun q => a13 m c (ix1 q)) r k)
    (V11 m ρ c main_arg15) (a15 m c)
    (fun q => V11 m ρ c main_v59 (ix2 (0 : Fin 1) q)) (fun q => a16 m c (ix1 q))
    p p q q
    (fun k => Cert.Sage.hiddenAt_ext (M := 50000) (M' := 50000) (K := 256) (N := 256) (N' := 256)
      (V11 m ρ c main_v57) (V11 m ρ c main_v39) (Cert.ReferenceIdeal.Read.val_main_v67 (F := Ideal) (a0 m c) (a2 m c) (a3 m c) (a4 m c) (a5 m c) (a6 m c) (a7 m c) (a8 m c))
      (Cert.ReferenceIdeal.Read.val_main_v49 (F := Ideal) (a0 m c) (a1 m c) (a4 m c) (a5 m c) (a9 m c) (a10 m c) (a11 m c))
      (V11 m ρ c main_arg12) (V11 m ρ c main_arg14) (a12 m c) (a14 m c)
      (fun q => V11 m ρ c main_v58 (ix2 (0 : Fin 1) q)) (fun q => a13 m c (ix1 q))
      p p k k
      (fun k' => congrFun (mean3 m ρ c) (ix2 p k')) (fun k' => congrFun (layer2_kept m ρ c) (ix2 p k'))
      (fun k' => congrFun (W11_arg12 m ρ c) (ix2 k' k)) (fun k' => congrFun (W11_arg14 m ρ c) (ix2 k' k))
      (W11_v58_at m ρ c k))
    (fun k => congrFun (W11_arg15 m ρ c) (ix2 k q))
    (W11_v59_at m ρ c q)

end Cert.KernelIdeal.Through

end
-- ==== Proof.lean ====
/-
  The certificate of the user encoder: three stacked SAGE layers (mean aggregation, two linear maps, a clamp at
  zero) and a final linear map, computed by a program of three tiled kernels among host operations, against the
  plain array program.

  The two programs aggregate with the same host operations (gather the source rows, add them into the destination
  rows, count, divide), so the aggregated means are equal arrays whatever those operations compute, as soon as
  their inputs are. What differs is the dense part: the kernels compute each layer 2000 rows at a time, as products
  into a zero accumulator over operands narrowed to bf16, while the reference takes whole-array products. On the
  extended reals narrowing is the identity and a product into zero is the plain sum, so each 2000-row block is the
  corresponding block of the whole-array layer, and the blocks tile the rows. No cancellation or distributivity is
  used: the equality holds at every input, and the finiteness of the inputs is never opened.

  The frames of the two kernel programs are the generated ones; the reference's frame is its generated run with the
  result dropped; nothing was rewritten in idealizing the kernel, so there is nothing to preserve.
-/
import proofs.«134559_j11768210391489_1_alg».proof.Defs
import proofs.«134559_j11768210391489_1_alg».proof.Proof.Gen.Kernel
import proofs.«134559_j11768210391489_1_alg».proof.Proof.Gen.Kernel.Skeleton
import proofs.«134559_j11768210391489_1_alg».proof.Proof.Gen.Kernel.Launch
import proofs.«134559_j11768210391489_1_alg».proof.Proof.Gen.Kernel.Points
import proofs.«134559_j11768210391489_1_alg».proof.Proof.Gen.Kernel.Frame
import proofs.«134559_j11768210391489_1_alg».proof.Proof.Gen.KernelIdeal
import proofs.«134559_j11768210391489_1_alg».proof.Proof.Gen.KernelIdeal.Skeleton
import proofs.«134559_j11768210391489_1_alg».proof.Proof.Gen.KernelIdeal.Launch
import proofs.«134559_j11768210391489_1_alg».proof.Proof.Gen.KernelIdeal.Points
import proofs.«134559_j11768210391489_1_alg».proof.Proof.Gen.KernelIdeal.Frame
import proofs.«134559_j11768210391489_1_alg».proof.Proof.Gen.ReferenceIdeal
import proofs.«134559_j11768210391489_1_alg».proof.Proof.Gen.Pre_finite_inputs
import proofs.«134559_j11768210391489_1_alg».proof.Proof.Gen.ReferenceIdeal.Run
import proofs.«134559_j11768210391489_1_alg».proof.Proof.Gen.ReferenceIdeal.Read
import proofs.«134559_j11768210391489_1_alg».proof.Proof.SageRun
import proofs.«134559_j11768210391489_1_alg».proof.Proof.SageValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- The reference's result stage sends equal arguments to equal results. -/
theorem result_stage_congr
    (y0 z0 : (⟨Cert.ReferenceIdeal.S100000x128, .f32⟩ : BufTy).Contents (Elt Ideal))
    (y1 z1 : (⟨Cert.ReferenceIdeal.S50000x128, .f32⟩ : BufTy).Contents (Elt Ideal))
    (y2 z2 : (⟨Cert.ReferenceIdeal.S800000, .i32⟩ : BufTy).Contents (Elt Ideal))
    (y3 z3 : (⟨Cert.ReferenceIdeal.S800000, .i32⟩ : BufTy).Contents (Elt Ideal))
    (y4 z4 : (⟨Cert.ReferenceIdeal.S800000, .i32⟩ : BufTy).Contents (Elt Ideal))
    (y5 z5 : (⟨Cert.ReferenceIdeal.S800000, .i32⟩ : BufTy).Contents (Elt Ideal))
    (y6 z6 : (⟨Cert.ReferenceIdeal.S128x256, .f32⟩ : BufTy).Contents (Elt Ideal))
    (y7 z7 : (⟨Cert.ReferenceIdeal.S256, .f32⟩ : BufTy).Contents (Elt Ideal))
    (y8 z8 : (⟨Cert.ReferenceIdeal.S128x256, .f32⟩ : BufTy).Contents (Elt Ideal))
    (y9 z9 : (⟨Cert.ReferenceIdeal.S128x256, .f32⟩ : BufTy).Contents (Elt Ideal))
    (y10 z10 : (⟨Cert.ReferenceIdeal.S256, .f32⟩ : BufTy).Contents (Elt Ideal))
    (y11 z11 : (⟨Cert.ReferenceIdeal.S128x256, .f32⟩ : BufTy).Contents (Elt Ideal))
    (y12 z12 : (⟨Cert.ReferenceIdeal.S256x256, .f32⟩ : BufTy).Contents (Elt Ideal))
    (y13 z13 : (⟨Cert.ReferenceIdeal.S256, .f32⟩ : BufTy).Contents (Elt Ideal))
    (y14 z14 : (⟨Cert.ReferenceIdeal.S256x256, .f32⟩ : BufTy).Contents (Elt Ideal))
    (y15 z15 : (⟨Cert.ReferenceIdeal.S256x64, .f32⟩ : BufTy).Contents (Elt Ideal))
    (y16 z16 : (⟨Cert.ReferenceIdeal.S64, .f32⟩ : BufTy).Contents (Elt Ideal))
    (e0 : y0 = z0) (e1 : y1 = z1) (e2 : y2 = z2) (e3 : y3 = z3) (e4 : y4 = z4) (e5 : y5 = z5) (e6 : y6 = z6) (e7 : y7 = z7) (e8 : y8 = z8) (e9 : y9 = z9) (e10 : y10 = z10) (e11 : y11 = z11) (e12 : y12 = z12) (e13 : y13 = z13) (e14 : y14 = z14) (e15 : y15 = z15) (e16 : y16 = z16) :
    Cert.ReferenceIdeal.Read.val_main_v78 (F := Ideal) y0 y1 y2 y3 y4 y5 y6 y7 y8 y9 y10 y11 y12 y13 y14 y15 y16
      = Cert.ReferenceIdeal.Read.val_main_v78 (F := Ideal) z0 z1 z2 z3 z4 z5 z6 z7 z8 z9 z10 z11 z12 z13 z14 z15 z16 := by
  subst_vars
  rfl

/-- From memories that agree on the arguments both programs end with the reference's result stage of those
    arguments in their result buffers: the kernel program by its run read back region by region, the reference by its
    own run. -/
theorem algebraic : Cert.algebraic_KernelIdeal_ReferenceIdeal := by
  intro m ρ m' ρ' _ hagree
  refine ⟨fun c => Cert.ReferenceIdeal.Read.val_main_v78 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.Through.result m ρ c), (h c).2⟩)
      (Cert.KernelIdeal.ValueRun.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    exact (Cert.ReferenceIdeal.Read.val_main_v78_eq (F := Ideal) m' c).trans
      (result_stage_congr _ _ _ _ _ _ _ _ _ _ _ _ _ _ _ _ _ _ _ _ _ _ _ _ _ _ _ _ _ _ _ _ _ _
        h0 h1 h2 h3 h4 h5 h6 h7 h8 h9 h10 h11 h12 h13 h14 h15 h16)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
